-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x4096 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S1x128 : Shape := ⟨2, ![1, 128]⟩
abbrev S512x4096 : Shape := ⟨2, ![512, 4096]⟩
abbrev S1x512x4096 : Shape := ⟨3, ![1, 512, 4096]⟩
abbrev S1 : Shape := ⟨1, ![1]⟩
abbrev S1x1x1 : Shape := ⟨3, ![1, 1, 1]⟩
abbrev S30 : Shape := ⟨1, ![30]⟩
abbrev S98 : Shape := ⟨1, ![98]⟩
abbrev S128 : Shape := ⟨1, ![128]⟩
abbrev S1x30 : Shape := ⟨2, ![1, 30]⟩
abbrev S_ : Shape := ⟨0, ![]⟩
abbrev S1x1 : Shape := ⟨2, ![1, 1]⟩

abbrev nBuf : Space → Nat
  | .hbm => 38
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S1x128, .f32⟩
  | .hbm, ⟨3, _⟩ => ⟨S1x30, .f32⟩
  | .hbm, ⟨4, _⟩ => ⟨S30, .f32⟩
  | .hbm, ⟨5, _⟩ => ⟨S_, .f32⟩
  | .hbm, ⟨6, _⟩ => ⟨S30, .f32⟩
  | .hbm, ⟨7, _⟩ => ⟨S30, .f32⟩
  | .hbm, ⟨8, _⟩ => ⟨S_, .f32⟩
  | .hbm, ⟨9, _⟩ => ⟨S30, .f32⟩
  | .hbm, ⟨10, _⟩ => ⟨S30, .i1⟩
  | .hbm, ⟨11, _⟩ => ⟨S30, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S30, .f32⟩
  | .hbm, ⟨18, _⟩ => ⟨S30, .f32⟩
  | .hbm, ⟨19, _⟩ => ⟨S_, .f32⟩
  | .hbm, ⟨20, _⟩ => ⟨S30, .f32⟩
  | .hbm, ⟨21, _⟩ => ⟨S30, .f32⟩
  | .hbm, ⟨22, _⟩ => ⟨S_, .f32⟩
  | .hbm, ⟨23, _⟩ => ⟨S_, .f32⟩
  | .hbm, ⟨24, _⟩ => ⟨S30, .f32⟩
  | .hbm, ⟨25, _⟩ => ⟨S30, .f32⟩
  | .hbm, ⟨26, _⟩ => ⟨S_, .f32⟩
  | .hbm, ⟨27, _⟩ => ⟨S128, .f32⟩
  | .hbm, ⟨28, _⟩ => ⟨S30, .f32⟩
  | .hbm, ⟨29, _⟩ => ⟨S30, .f32⟩
  | .hbm, ⟨30, _⟩ => ⟨S_, .i32⟩
  | .hbm, ⟨31, _⟩ => ⟨S1, .i32⟩
  | .hbm, ⟨32, _⟩ => ⟨S128, .f32⟩
  | .hbm, ⟨33, _⟩ => ⟨S1x128, .f32⟩
  | .hbm, ⟨34, _⟩ => ⟨S1x1, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .i32⟩
  | .local _ .vmem, ⟨3, _⟩ => ⟨S512x4096, .i32⟩
  | .local _ .vmem, ⟨4, _⟩ => ⟨S1x128, .f32⟩
  | .local _ .vmem, ⟨5, _⟩ => ⟨S512x4096, .f32⟩
  | .local _ .vmem, ⟨6, _⟩ => ⟨S512x4096, .f32⟩
  | .local _ .vmem, ⟨7, _⟩ => ⟨S512x4096, .i32⟩
  | .local _ .vmem, ⟨8, _⟩ => ⟨S512x4096, .i32⟩
  | .local _ .vmem, ⟨9, _⟩ => ⟨S1x128, .f32⟩
  | .local _ .vmem, ⟨10, _⟩ => ⟨S1x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S1x128_S1x128_0_0 : ∀ a, (![0, 0] : Fin 2 → Nat) a + S1x128.size a ≤ S1x128.size a
  h_S1x128 : 0 < S1x128.numel
  inb_S512x4096_S512x4096_0_0 : ∀ a, (![0, 0] : Fin 2 → Nat) a + S512x4096.size a ≤ S512x4096.size a
  h_S512x4096 : 0 < S512x4096.numel
  natLt_1_32 : 1 < 32
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S1_S1_S1_S1_S1_S1_S1_S1_S1_S1_S1_S1_S1_S1_S1_S1_S1_S1_S1_S1_S1_S1_S1_S1_S1_S30_d0 : Shape.Concatenates [S1, S1, S1, S1, S1, S1, S1, S1, S1, S1, S1, S1, S1, S1, S1, S1, S1, S1, S1, S1, S1, S1, S1, S1, S1, S1, S1, S1, S1, S1] S30 0
  concatenates_S30_S98_S128_d0 : Shape.Concatenates [S30, S98] S128 0
  shapeCasts_S128_S1x128 : S128.ShapeCasts S1x128
  shapeCasts_S1x128_S1x128 : S1x128.ShapeCasts S1x128
  slices_S1x128_S1x30_0_0 : S1x128.Slices ![0, 0] S1x30
  shapeCasts_S1x30_S30 : S1x30.ShapeCasts S30
  bcast_S_S30 : S_.BroadcastsInDim S30 (![] : Fin 0 → Fin S30.rank)
  reducesTo_S30_S_d0 : S30.ReducesTo [0] S_
  h_S_ : 0 < S_.numel
  bcast_S_S128 : S_.BroadcastsInDim S128 (![] : Fin 0 → Fin S128.rank)
  bcast_S_S1 : S_.BroadcastsInDim S1 (![] : Fin 0 → Fin S1.rank)
  inb_S1x1_S1x1_0_0 : ∀ a, (![0, 0] : Fin 2 → Nat) a + S1x1.size a ≤ S1x1.size a
  h_S1x1 : 0 < S1x1.numel
  slices_S1x128_o0_0_S1x1 : S1x128.Slices ![0, 0] S1x1
  inpos_S1x1_p0_0 : ∀ a, (![0, 0] : Fin 2 → Nat) a < S1x1.size a
  slices_S1x128_o0_1_S1x1 : S1x128.Slices ![0, 1] S1x1
  slices_S1x128_o0_2_S1x1 : S1x128.Slices ![0, 2] S1x1
  slices_S1x128_o0_3_S1x1 : S1x128.Slices ![0, 3] S1x1
  slices_S1x128_o0_4_S1x1 : S1x128.Slices ![0, 4] S1x1
  slices_S1x128_o0_5_S1x1 : S1x128.Slices ![0, 5] S1x1
  slices_S1x128_o0_6_S1x1 : S1x128.Slices ![0, 6] S1x1
  slices_S1x128_o0_7_S1x1 : S1x128.Slices ![0, 7] S1x1
  slices_S1x128_o0_8_S1x1 : S1x128.Slices ![0, 8] S1x1
  slices_S1x128_o0_9_S1x1 : S1x128.Slices ![0, 9] S1x1
  slices_S1x128_o0_10_S1x1 : S1x128.Slices ![0, 10] S1x1
  slices_S1x128_o0_11_S1x1 : S1x128.Slices ![0, 11] S1x1
  slices_S1x128_o0_12_S1x1 : S1x128.Slices ![0, 12] S1x1
  slices_S1x128_o0_13_S1x1 : S1x128.Slices ![0, 13] S1x1
  slices_S1x128_o0_14_S1x1 : S1x128.Slices ![0, 14] S1x1
  slices_S1x128_o0_15_S1x1 : S1x128.Slices ![0, 15] S1x1
  slices_S1x128_o0_16_S1x1 : S1x128.Slices ![0, 16] S1x1
  slices_S1x128_o0_17_S1x1 : S1x128.Slices ![0, 17] S1x1
  slices_S1x128_o0_18_S1x1 : S1x128.Slices ![0, 18] S1x1
  slices_S1x128_o0_19_S1x1 : S1x128.Slices ![0, 19] S1x1
  slices_S1x128_o0_20_S1x1 : S1x128.Slices ![0, 20] S1x1
  slices_S1x128_o0_21_S1x1 : S1x128.Slices ![0, 21] S1x1
  slices_S1x128_o0_22_S1x1 : S1x128.Slices ![0, 22] S1x1
  slices_S1x128_o0_23_S1x1 : S1x128.Slices ![0, 23] S1x1
  slices_S1x128_o0_24_S1x1 : S1x128.Slices ![0, 24] S1x1
  slices_S1x128_o0_25_S1x1 : S1x128.Slices ![0, 25] S1x1
  slices_S1x128_o0_26_S1x1 : S1x128.Slices ![0, 26] S1x1
  slices_S1x128_o0_27_S1x1 : S1x128.Slices ![0, 27] S1x1
  slices_S1x128_o0_28_S1x1 : S1x128.Slices ![0, 28] S1x1
  slices_S1x128_o0_29_S1x1 : S1x128.Slices ![0, 29] S1x1
  shapeCasts_S1x1_S1x1 : S1x1.ShapeCasts S1x1
  shapeCasts_S1x1_S_ : S1x1.ShapeCasts S_
  scatter_S128_S1_S30_0_n_0_0_wf : ScatterDims.WF S128 S1 S30 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .i32 = 32 ∨ (Rect.block (s := S8192x4096) S512x4096.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .i32 = 32 ∨ (Rect.block (s := S8192x4096) S512x4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

def scatter_S128_S1_S30_0_n_0_0 : ScatterDims S128 S1 S30 where
  updateWindowDims := [0]
  insertedWindowDims := []
  scatterDimsToOperandDims := [0]
  indexVectorDim := 0
  wf := scatter_S128_S1_S30_0_n_0_0_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S_ : Shape := ⟨0, ![]⟩
abbrev S30 : Shape := ⟨1, ![30]⟩
abbrev S33554432 : Shape := ⟨1, ![33554432]⟩
abbrev S33554432x1 : Shape := ⟨2, ![33554432, 1]⟩
abbrev S8192x4096x1 : Shape := ⟨3, ![8192, 4096, 1]⟩

abbrev nBuf : Space → Nat
  | .hbm => 92
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .i32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8192x4096, .i32⟩
  | .hbm, ⟨21, _⟩ => ⟨S8192x4096, .i32⟩
  | .hbm, ⟨22, _⟩ => ⟨S_, .i32⟩
  | .hbm, ⟨23, _⟩ => ⟨S8192x4096, .i32⟩
  | .hbm, ⟨24, _⟩ => ⟨S8192x4096, .i32⟩
  | .hbm, ⟨25, _⟩ => ⟨S_, .f32⟩
  | .hbm, ⟨26, _⟩ => ⟨S30, .f32⟩
  | .hbm, ⟨27, _⟩ => ⟨S33554432, .i32⟩
  | .hbm, ⟨28, _⟩ => ⟨S_, .i32⟩
  | .hbm, ⟨29, _⟩ => ⟨S33554432, .i32⟩
  | .hbm, ⟨30, _⟩ => ⟨S33554432, .i1⟩
  | .hbm, ⟨31, _⟩ => ⟨S_, .i32⟩
  | .hbm, ⟨32, _⟩ => ⟨S33554432, .i32⟩
  | .hbm, ⟨33, _⟩ => ⟨S33554432, .i32⟩
  | .hbm, ⟨34, _⟩ => ⟨S33554432, .i32⟩
  | .hbm, ⟨35, _⟩ => ⟨S33554432x1, .i32⟩
  | .hbm, ⟨36, _⟩ => ⟨S_, .f32⟩
  | .hbm, ⟨37, _⟩ => ⟨S33554432, .f32⟩
  | .hbm, ⟨38, _⟩ => ⟨S30, .f32⟩
  | .hbm, ⟨39, _⟩ => ⟨S_, .f32⟩
  | .hbm, ⟨40, _⟩ => ⟨S30, .f32⟩
  | .hbm, ⟨41, _⟩ => ⟨S30, .f32⟩
  | .hbm, ⟨42, _⟩ => ⟨S_, .f32⟩
  | .hbm, ⟨43, _⟩ => ⟨S30, .f32⟩
  | .hbm, ⟨44, _⟩ => ⟨S30, .i1⟩
  | .hbm, ⟨45, _⟩ => ⟨S30, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S30, .f32⟩
  | .hbm, ⟨52, _⟩ => ⟨S30, .f32⟩
  | .hbm, ⟨53, _⟩ => ⟨S_, .f32⟩
  | .hbm, ⟨54, _⟩ => ⟨S30, .f32⟩
  | .hbm, ⟨55, _⟩ => ⟨S30, .f32⟩
  | .hbm, ⟨56, _⟩ => ⟨S_, .f32⟩
  | .hbm, ⟨57, _⟩ => ⟨S_, .f32⟩
  | .hbm, ⟨58, _⟩ => ⟨S30, .f32⟩
  | .hbm, ⟨59, _⟩ => ⟨S30, .f32⟩
  | .hbm, ⟨60, _⟩ => ⟨S_, .i32⟩
  | .hbm, ⟨61, _⟩ => ⟨S8192x4096, .i32⟩
  | .hbm, ⟨62, _⟩ => ⟨S8192x4096, .i1⟩
  | .hbm, ⟨63, _⟩ => ⟨S_, .i32⟩
  | .hbm, ⟨64, _⟩ => ⟨S8192x4096, .i32⟩
  | .hbm, ⟨65, _⟩ => ⟨S8192x4096, .i32⟩
  | .hbm, ⟨66, _⟩ => ⟨S8192x4096, .i32⟩
  | .hbm, ⟨67, _⟩ => ⟨S8192x4096x1, .i32⟩
  | .hbm, ⟨68, _⟩ => ⟨S8192x4096, .f32⟩
  | .hbm, ⟨69, _⟩ => ⟨S8192x4096, .f32⟩
  | .hbm, ⟨70, _⟩ => ⟨S8192x4096, .f32⟩
  | .hbm, ⟨71, _⟩ => ⟨S_, .f32⟩
  | .hbm, ⟨72, _⟩ => ⟨S8192x4096, .f32⟩
  | .hbm, ⟨73, _⟩ => ⟨S8192x4096, .f32⟩
  | .hbm, ⟨74, _⟩ => ⟨S8192x4096, .f32⟩
  | .hbm, ⟨75, _⟩ => ⟨S8192x4096, .f32⟩
  | .hbm, ⟨76, _⟩ => ⟨S8192x4096, .i1⟩
  | .hbm, ⟨77, _⟩ => ⟨S8192x4096, .f32⟩
  | .hbm, ⟨78, _⟩ => ⟨S8192x4096, .f32⟩
  | .hbm, ⟨79, _⟩ => ⟨S8192x4096, .f32⟩
  | .hbm, ⟨80, _⟩ => ⟨S8192x4096, .f32⟩
  | .hbm, ⟨81, _⟩ => ⟨S8192x4096, .f32⟩
  | .hbm, ⟨82, _⟩ => ⟨S8192x4096, .f32⟩
  | .hbm, ⟨83, _⟩ => ⟨S8192x4096, .f32⟩
  | .hbm, ⟨84, _⟩ => ⟨S8192x4096, .f32⟩
  | .hbm, ⟨85, _⟩ => ⟨S8192x4096, .f32⟩
  | .hbm, ⟨86, _⟩ => ⟨S8192x4096, .f32⟩
  | .hbm, ⟨87, _⟩ => ⟨S8192x4096, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_cst_11 : Ref sig .tc := ⟨.hbm, 50, rfl⟩
abbrev main_v30 : Ref sig .tc := ⟨.hbm, 51, rfl⟩
abbrev main_v31 : Ref sig .tc := ⟨.hbm, 52, rfl⟩
abbrev main_cst_12 : Ref sig .tc := ⟨.hbm, 53, rfl⟩
abbrev main_v32 : Ref sig .tc := ⟨.hbm, 54, rfl⟩
abbrev main_v33 : Ref sig .tc := ⟨.hbm, 55, rfl⟩
abbrev main_cst_13 : Ref sig .tc := ⟨.hbm, 56, rfl⟩
abbrev main_call1_v0 : Ref sig .tc := ⟨.hbm, 57, rfl⟩
abbrev main_call1_v1 : Ref sig .tc := ⟨.hbm, 58, rfl⟩
abbrev main_v34 : Ref sig .tc := ⟨.hbm, 59, rfl⟩
abbrev main_c_14 : Ref sig .tc := ⟨.hbm, 60, rfl⟩
abbrev main_v35 : Ref sig .tc := ⟨.hbm, 61, rfl⟩
abbrev main_v36 : Ref sig .tc := ⟨.hbm, 62, rfl⟩
abbrev main_c_15 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_16 : Ref sig .tc := ⟨.hbm, 88, rfl⟩
abbrev main_v48 : Ref sig .tc := ⟨.hbm, 89, rfl⟩
abbrev main_cst_17 : Ref sig .tc := ⟨.hbm, 90, rfl⟩
abbrev main_v49 : Ref sig .tc := ⟨.hbm, 91, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S30 : S_.BroadcastsInDim S30 (![] : Fin 0 → Fin S30.rank)
  shapeCasts_S8192x4096_S33554432 : S8192x4096.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  reducesTo_S30_S_d0 : S30.ReducesTo [0] S_
  h_S_ : 0 < S_.numel
  bcast_S8192x4096_S8192x4096x1_0_1 : S8192x4096.BroadcastsInDim S8192x4096x1 (![0, 1] : Fin 2 → Fin S8192x4096x1.rank)
  reducesTo_S8192x4096_S_d0_1 : S8192x4096.ReducesTo [0, 1] S_
  scatter_S30_S33554432x1_S33554432_n_0_0_1_wf : ScatterDims.WF S30 S33554432x1 S33554432 [] [0] [0] 1
  gather_S30_S8192x4096x1_S8192x4096_n_0_n_n_0_2_1_wf : GatherDims.WF S30 S8192x4096x1 S8192x4096 [] [0] [] [0] [] 2 ![1]

variable [Facts₀]

def scatter_S30_S33554432x1_S33554432_n_0_0_1 : ScatterDims S30 S33554432x1 S33554432 where
  updateWindowDims := []
  insertedWindowDims := [0]
  scatterDimsToOperandDims := [0]
  indexVectorDim := 1
  wf := scatter_S30_S33554432x1_S33554432_n_0_0_1_wf
def gather_S30_S8192x4096x1_S8192x4096_n_0_n_n_0_2_1 : GatherDims S30 S8192x4096x1 S8192x4096 where
  offsetDims := []
  collapsedSliceDims := [0]
  operandBatchingDims := []
  startIndicesBatchingDims := []
  startIndexMap := [0]
  indexVectorDim := 2
  sliceSizes := ![1]
  wf := gather_S30_S8192x4096x1_S8192x4096_n_0_n_n_0_2_1_wf

class Facts : Prop extends Facts₀ where

variable [Facts]
-- ==== Proof.KernelRun.lean ====
import proofs.«124200_j9895604649991_1_alg».proof.Proof.Gen.KernelIdeal.Frame
import Idealize.ShloMosaic.Lib.StableHlo.Run
import Idealize.ShloMosaic.Lib.Pipeline.Value
import Idealize.ShloMosaic.Lib.ValueIdx

/-! # The kernel's run with its result buffer named, and the host operations between the regions read as values -/

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run: every weakly fair execution of @main terminates, and its final state holds the result buffer at the
    last boundary's contents and the two arguments as launched -/

set_option backward.isDefEq.respectTransparency.types false in
theorem run_named : θ_run defs (onTc (τ := τ) (main (F := F))) ⟨m, fun _ => 0, ρ⟩ (fun r => ∀ c : Dev nD,
      r.2.mem ((c.tc : Thread nD τ).loc main_v23) = W6 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v23 (by decide)),
       (h c _ (mem_uc main_arg0 (by decide))).trans (W6_main_arg0 m ρ c),
       (h c _ (mem_uc main_arg1 (by decide))).trans (W6_main_arg1 m ρ c)⟩)

/-! ## The weight table as a function of the carried histogram block

    The host operations between the two regions, staged: the first 30 lanes of the block as the counts, the weight of a
    bin and the number of populated bins as functions of the counts alone, their quotient, and that quotient written
    into lanes 0..29 of a row of 128 zeros. -/

/-- The counts: lanes 0..29 of the [1,128] block, as a vector of 30. -/
def numInBin (H : Vec F S1x128 .f32) : Vec F S30 .f32 :=
  shapeCast S30 (extractStridedSlice S1x30 ![0, 0] H slices_S1x128_S1x30_0_0) shapeCasts_S1x30_S30

/-- Which bins are populated: count > 0. -/
def occupied (N : Vec F S30 .f32) : IVec S30 1 :=
  cmpf (F := F) .ogt N (broadcastInDim S30 ![] bcast_S_S30 (constant (F := F) S_ .f32 0x00000000#32))

/-- The number of populated bins, at least 1: max(Σ_b [N b > 0], 1). -/
def nval (N : Vec F S30 .f32) : Vec F S_ .f32 :=
  maximumf (F := F)
    (Host.reduceAdd (F := F) (uitofp (F := F) .f32 (occupied N)) (constant (F := F) S_ .f32 0x00000000#32) reducesTo_S30_S_d0 h_S_)
    (constant (F := F) S_ .f32 0x3F800000#32)

/-- A bin's weight: 2^25 / max(0.5 · N b, 1e-12) where the bin is populated, 0 elsewhere. -/
def binw (N : Vec F S30 .f32) : Vec F S30 .f32 :=
  select (occupied N)
    (Host.divf (F := F) (broadcastInDim S30 ![] bcast_S_S30 (constant (F := F) S_ .f32 0x4C000000#32))
      (maximumf (F := F) (mulf (F := F) (broadcastInDim S30 ![] bcast_S_S30 (constant (F := F) S_ .f32 0x3F000000#32)) N)
        (broadcastInDim S30 ![] bcast_S_S30 (constant (F := F) S_ .f32 0x2B8CBCCC#32))))
    (broadcastInDim S30 ![] bcast_S_S30 (constant (F := F) S_ .f32 0x00000000#32))

/-- The 30 table entries: a bin's weight over the number of populated bins. -/
def wtab30 (N : Vec F S30 .f32) : Vec F S30 .f32 :=
  Host.divf (F := F) (binw N) (broadcastInDim S30 ![] bcast_S_S30 (nval N))

/-- The row of 128 with the 30 entries written from lane 0 on, zeros elsewhere. -/
def wrow (T : Vec F S30 .f32) : Vec F S128 .f32 :=
  Host.scatter scatter_S128_S1_S30_0_n_0_0 (fun _ b => b)
    (broadcastInDim S128 ![] bcast_S_S128 (constant (F := F) S_ .f32 0x00000000#32))
    (broadcastInDim S1 ![] bcast_S_S1 (constantI S_ 32 0#32)) T

/-- The weight table region 1 reads, from the block region 0 leaves. -/
def wtabOf (H : Vec F S1x128 .f32) : Vec F S1x128 .f32 :=
  shapeCast S1x128 (wrow (wtab30 (numInBin H))) shapeCasts_S128_S1x128

/-! ## Reading the fold of buffer contents

    Which buffer each window stages; the result buffer after the last host operations; the arguments and the weight
    table as region 1 is entered. -/

theorem arrRef0_0 : Pipeline.arrRef spec0 0 = main_arg0 := rfl
theorem arrRef0_1 : Pipeline.arrRef spec0 1 = main_arg1 := rfl
theorem arrRef0_2 : Pipeline.arrRef spec0 2 = main_v0 := rfl
theorem arrRef1_0 : Pipeline.arrRef spec1 0 = main_arg0 := rfl
theorem arrRef1_1 : Pipeline.arrRef spec1 1 = main_arg1 := rfl
theorem arrRef1_2 : Pipeline.arrRef spec1 2 = main_v20 := rfl
theorem arrRef1_3 : Pipeline.arrRef spec1 3 = main_v21 := rfl

/-- The result: the [1,1] block region 1 leaves, as a scalar, over 2^25. -/
theorem W6_main_v23 (c : Dev nD) :
    W6 m ρ c (Proc.devRef .tc main_v23)
      = Host.divf (shapeCast S_ ((dat1 (V4 m ρ) c).arrAt 3 cfg1.N) shapeCasts_S1x1_S_) (constant (F := F) S_ .f32 0x4C000000#32) := by
  refine Eq.trans ?_ (congrArg (fun a => Host.divf (shapeCast S_ a shapeCasts_S1x1_S_) (constant (F := F) S_ .f32 0x4C000000#32)) (W5_arr m ρ c 3))
  show StableHlo.after hostOps2 (W5 m ρ c) (Proc.devRef .tc main_v23) = _
  after_results
  rfl

theorem V0_main_arg0 (c : Dev nD) : V0 m ρ c main_arg0 = m ((c.tc : Thread nD τ).loc main_arg0) := rfl

theorem V4_main_arg0 (c : Dev nD) : V4 m ρ c main_arg0 = m ((c.tc : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem V0_main_arg1 (c : Dev nD) : V0 m ρ c main_arg1 = m ((c.tc : Thread nD τ).loc main_arg1) := rfl

theorem V4_main_arg1 (c : Dev nD) : V4 m ρ c main_arg1 = m ((c.tc : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl

set_option maxHeartbeats 4000000 in
/-- Region 1 reads the weight table the host operations compute from the block region 0 leaves. -/
theorem V4_main_v20 (c : Dev nD) :
    V4 m ρ c main_v20 = wtabOf ((dat0 (V0 m ρ) c).arrAt 2 cfg0.N) := by
  refine Eq.trans ?_ (congrArg wtabOf (W1_arr m ρ c 2))
  show StableHlo.after hostOps1_2 (StableHlo.after hostOps1_1 (StableHlo.after hostOps1 (W1 m ρ c))) (Proc.devRef .tc main_v20) = _
  after_results_simp
  rfl

/-! ## A left fold of point updates

    Each step overwrites one index with one value. An index no step names keeps its contents; where the named indices
    are pairwise distinct, the index step `k` names ends at step `k`'s value. -/

section PointUpdates
variable {ι κ α : Type} [DecidableEq ι]

/-- An index that no step of the fold names keeps what it held. -/
theorem foldl_update_of_forall_ne (g : κ → ι) (v : κ → α) (i : ι) :
    ∀ (l : List κ) (x : ι → α), (∀ k ∈ l, g k ≠ i) →
      l.foldl (fun r k => fun i' => if i' = g k then v k else r i') x i = x i
  | [], _, _ => rfl
  | a :: t, x, h => by
    rw [List.foldl_cons, foldl_update_of_forall_ne g v i t _ fun k hk => h k (List.mem_cons_of_mem _ hk)]
    exact if_neg (Ne.symm (h a List.mem_cons_self))

/-- Over a list without repeats whose steps name pairwise distinct indices, the index step `k` names ends at `v k`. -/
theorem foldl_update_of_mem (g : κ → ι) (hg : Function.Injective g) (v : κ → α) :
    ∀ (l : List κ) (x : ι → α), l.Nodup → ∀ k ∈ l,
      l.foldl (fun r k => fun i' => if i' = g k then v k else r i') x (g k) = v k
  | [], _, _, _, hk => absurd hk List.not_mem_nil
  | a :: t, x, hnd, k, hk => by
    rw [List.foldl_cons]
    by_cases hkt : k ∈ t
    · exact foldl_update_of_mem g hg v t _ (List.nodup_cons.mp hnd).2 k hkt
    · have hka : k = a := (List.mem_cons.mp hk).resolve_right hkt
      subst hka
      rw [foldl_update_of_forall_ne g v (g k) t _ fun b hb e => (List.nodup_cons.mp hnd).1 (hg e ▸ hb)]
      exact if_pos rfl

end PointUpdates

/-! ## The table read at a lane -/

open Idealize.ShloMosaic.ValueIdx

/-- Where update index `j` lands in the row: the one start index is 0 and the window runs along the row, so at lane `j 0`. -/
theorem resultIdx_wrow (j : S30.Idx) :
    scatter_S128_S1_S30_0_n_0_0.resultIdx? j (broadcastInDim S1 ![] bcast_S_S1 (constantI S_ 32 0#32))
      = some (ix1 (⟨(j 0).val, Nat.lt_of_lt_of_le (show (j 0).val < 30 from (j 0).isLt) (by decide)⟩ : Fin 128)) := by
  have hs : ∀ a, scatter_S128_S1_S30_0_n_0_0.start j (broadcastInDim S1 ![] bcast_S_S1 (constantI S_ 32 0#32)) a = 0 := fun a => by
    unfold ScatterDims.start
    split
    · rfl
    · rfl
  have hw : ∀ a, scatter_S128_S1_S30_0_n_0_0.window j a = (j 0).val := fun a => by
    obtain rfl : a = 0 := Fin.ext (by have := (show a.val < 1 from a.isLt); show a.val = 0; omega)
    unfold ScatterDims.window
    rw [dif_pos (by decide)]
    rfl
  have hj : (j 0).val < 30 := (j 0).isLt
  unfold ScatterDims.resultIdx?
  rw [dif_pos (fun a => by
    obtain rfl : a = 0 := Fin.ext (by have := (show a.val < 1 from a.isLt); show a.val = 0; omega)
    rw [hs 0, hw 0]
    exact ⟨by omega, by show (0 : Int) + ((j 0).val : Int) < 128; omega⟩)]
  refine congrArg some (funext fun a => Fin.ext ?_)
  obtain rfl : a = 0 := Fin.ext (by have := (show a.val < 1 from a.isLt); show a.val = 0; omega)
  have e : (scatter_S128_S1_S30_0_n_0_0.start j (broadcastInDim S1 ![] bcast_S_S1 (constantI S_ 32 0#32)) 0
      + (scatter_S128_S1_S30_0_n_0_0.window j 0 : Int)).toNat = (j 0).val := by rw [hs 0, hw 0]; omega
  exact e

/-- The row lane update number `n` (row-major over the 30 entries) lands at. -/
def lane (n : Fin S30.numel) : S128.Idx :=
  ix1 (⟨((S30.rowMajor.symm n) 0).val,
    Nat.lt_of_lt_of_le (show ((S30.rowMajor.symm n) 0).val < 30 from ((S30.rowMajor.symm n) 0).isLt) (by decide)⟩ : Fin 128)

/-- A rank-1 index's row-major number is its coordinate. -/
theorem rowMajor_symm_val (n : Fin S30.numel) : ((S30.rowMajor.symm n) 0).val = n.val := by
  have h := Shape.rowMajor_val_one (d := ![30]) (S30.rowMajor.symm n)
  rw [Equiv.apply_symm_apply] at h
  exact h.symm

/-- Distinct updates land at distinct lanes. -/
theorem lane_injective : Function.Injective lane := fun n n' h => by
  have h0 : (lane n 0).val = (lane n' 0).val := congrArg (fun i : S128.Idx => (i 0).val) h
  have e : ((S30.rowMajor.symm n) 0).val = ((S30.rowMajor.symm n') 0).val := h0
  rw [rowMajor_symm_val, rowMajor_symm_val] at e
  exact Fin.ext e

/-- The row read at a lane below 30 is the entry written there: the 30 updates land at pairwise distinct lanes, and
    the one landing at lane `b` carries entry `b`. -/
theorem wrow_lane (T : Vec F S30 .f32) (b : Fin 30) :
    wrow T (ix1 (⟨b.val, Nat.lt_of_lt_of_le b.isLt (by decide)⟩ : Fin 128)) = T (ix1 b) := by
  have hstep : (fun (r : S128.Idx → Elt F .f32) (n : Fin S30.numel) =>
      match scatter_S128_S1_S30_0_n_0_0.resultIdx? (S30.rowMajor.symm n) (broadcastInDim S1 ![] bcast_S_S1 (constantI S_ 32 0#32)) with
      | some i => fun i' => if i' = i then (fun (_ b : Elt F .f32) => b) (r i) (T (S30.rowMajor.symm n)) else r i'
      | none => r)
    = fun r n => fun i' => if i' = lane n then T (S30.rowMajor.symm n) else r i' := by
    funext r n
    rw [resultIdx_wrow]
    rfl
  have hk : lane (S30.rowMajor (ix1 b)) = ix1 (⟨b.val, Nat.lt_of_lt_of_le b.isLt (by decide)⟩ : Fin 128) :=
    congrArg ix1 (Fin.ext (by
      show ((S30.rowMajor.symm (S30.rowMajor (ix1 b))) 0).val = b.val
      rw [Equiv.symm_apply_apply]))
  have main := foldl_update_of_mem lane lane_injective (fun n => T (S30.rowMajor.symm n)) (List.finRange S30.numel)
    (broadcastInDim S128 ![] bcast_S_S128 (constant (F := F) S_ .f32 0x00000000#32)) (List.nodup_finRange _)
    (S30.rowMajor (ix1 b)) (List.mem_finRange _)
  rw [hk] at main
  refine Eq.trans ?_ (main.trans (congrArg T (Equiv.symm_apply_apply _ _)))
  exact congrFun (congrArg (fun st => List.foldl st (broadcastInDim S128 ![] bcast_S_S128 (constant (F := F) S_ .f32 0x00000000#32))
    (List.finRange S30.numel)) hstep) _

/-- A lane from 30 on keeps the zero it held: no update lands there. -/
theorem wrow_lane_ge (T : Vec F S30 .f32) (l : Fin 128) (hl : 30 ≤ l.val) :
    wrow T (ix1 l) = FloatOps.ofBits (F := F) .f32 0x00000000#32 := by
  have hstep : (fun (r : S128.Idx → Elt F .f32) (n : Fin S30.numel) =>
      match scatter_S128_S1_S30_0_n_0_0.resultIdx? (S30.rowMajor.symm n) (broadcastInDim S1 ![] bcast_S_S1 (constantI S_ 32 0#32)) with
      | some i => fun i' => if i' = i then (fun (_ b : Elt F .f32) => b) (r i) (T (S30.rowMajor.symm n)) else r i'
      | none => r)
    = fun r n => fun i' => if i' = lane n then T (S30.rowMajor.symm n) else r i' := by
    funext r n
    rw [resultIdx_wrow]
    rfl
  have main := foldl_update_of_forall_ne lane (fun n => T (S30.rowMajor.symm n)) (ix1 l) (List.finRange S30.numel)
    (broadcastInDim S128 ![] bcast_S_S128 (constant (F := F) S_ .f32 0x00000000#32)) fun n _ e => by
      have h0 : (lane n 0).val = l.val := congrArg (fun i : S128.Idx => (i 0).val) e
      have h1 : ((S30.rowMajor.symm n) 0).val = l.val := h0
      have h2 : ((S30.rowMajor.symm n) 0).val < 30 := ((S30.rowMajor.symm n) 0).isLt
      omega
  refine Eq.trans ?_ (main.trans rfl)
  exact congrFun (congrArg (fun st => List.foldl st (broadcastInDim S128 ![] bcast_S_S128 (constant (F := F) S_ .f32 0x00000000#32))
    (List.finRange S30.numel)) hstep) _

/-- The counts read at a bin: the block's lane. -/
theorem numInBin_apply (H : Vec F S1x128 .f32) (b : Fin 30) :
    numInBin H (ix1 b) = H (ix2 (0 : Fin 1) (⟨b.val, Nat.lt_of_lt_of_le b.isLt (by decide)⟩ : Fin 128)) := by
  unfold numInBin
  refine (shapeCast_apply _ shapeCasts_S1x30_S30 (ix1 b) (ix2 (0 : Fin 1) b) ?_).trans ?_
  · rw [Shape.rowMajor_val_two, Shape.rowMajor_val_one]
    show (0 : Nat) * 30 + b.val = b.val
    omega
  · refine extractStridedSlice_apply _ H slices_S1x128_S1x30_0_0 (ix2 (0 : Fin 1) b) _ fun a => ?_
    match a with
    | ⟨0, _⟩ => rfl
    | ⟨1, _⟩ => show b.val = 0 + b.val; omega

/-- The table read at lane `b` below 30 is entry `b`. -/
theorem wtabOf_lane (H : Vec F S1x128 .f32) (b : Fin 30) :
    wtabOf H (ix2 (0 : Fin 1) (⟨b.val, Nat.lt_of_lt_of_le b.isLt (by decide)⟩ : Fin 128)) = wtab30 (numInBin H) (ix1 b) := by
  unfold wtabOf
  refine (shapeCast_apply _ shapeCasts_S128_S1x128 _ (ix1 (⟨b.val, Nat.lt_of_lt_of_le b.isLt (by decide)⟩ : Fin 128)) ?_).trans (wrow_lane _ b)
  rw [Shape.rowMajor_val_two, Shape.rowMajor_val_one]
  show b.val = (0 : Nat) * 128 + b.val
  omega

end Cert.KernelIdeal.KRun

end
-- ==== Proof.Spec.lean ====
/-
  The gradient-harmonised classification loss, stated once over the extended reals.

  For logits `x` and integer targets `t` of shape [8192, 4096]:
    * every element falls in one of thirty bins, by `g = |σ(x) − t|`: the bin is `⌊30·g⌋` (toward zero) clipped to `[0, 29]`;
    * `hist b` is the number of elements in bin `b`;
    * a bin's weight is `2²⁵ / max(hist b / 2, 1e-12)` when the bin is not empty and `0` when it is, divided by the number
      of non-empty bins (at least one);
    * an element's loss is `(softplus x − x·t)` times the weight of its bin, and the result is the sum of all of them
      over `2²⁵`.
  Everything is spelled with the scalar operations the two programs use, so that each program's element unfolds to these
  terms; what differs between the programs is only how the two sums are grouped.
-/
import Idealize.ShloMosaic.PureOps.Ideal
import Idealize.ShloMosaic.PureOps.Contract
import Idealize.ShloMosaic.Lib.ValueIdx

noncomputable section

namespace Cert.GhmSpec

open Idealize.ShloMosaic Idealize.ShloMosaic.ValueIdx

/-- The shape of the two argument arrays. -/
abbrev SA : Shape := ⟨2, ![8192, 4096]⟩
/-- The shape of the histogram and of the weight table. -/
abbrev S30 : Shape := ⟨1, ![30]⟩
/-- The shape of a scalar. -/
abbrev S0 : Shape := ⟨0, ![]⟩

/-! ## One element -/

/-- The bin of one element: `30·|σ(x) − t|` truncated toward zero to a 32-bit integer, then clipped to `[0, 29]`. -/
def bin (x : Ideal .f32) (t : BitVec 32) : BitVec 32 :=
  IntOp.minsi 29#32 (IntOp.maxsi 0#32 (FloatOps.fptosi (F := Ideal) 32
    (FloatOps.mulf (F := Ideal) (FloatOps.absf (F := Ideal) (FloatOps.subf (F := Ideal) (FloatOps.logistic (F := Ideal) x)
      (FloatOps.sitofp (F := Ideal) .f32 t))) (FloatOps.ofBits (F := Ideal) .f32 0x41F00000#32))))

/-- The clip leaves the bin between 0 and 29, as a signed integer. -/
theorem bin_bounds (x : Ideal .f32) (t : BitVec 32) : 0 ≤ (bin x t).toInt ∧ (bin x t).toInt ≤ 29 := by
  unfold bin IntOp.minsi IntOp.maxsi
  generalize FloatOps.fptosi (F := Ideal) 32 _ = z
  simp only [BitVec.slt]
  have h0 : (0#32).toInt = 0 := by decide
  have h29 : (29#32).toInt = 29 := by decide
  split_ifs with h1 h2 h2
  all_goals (simp only [decide_eq_true_eq, not_lt] at *; omega)

/-- The lane of the weight table an integer bin names: itself, when it lies in `[0, 29]`. -/
def binLane (k : BitVec 32) : Fin 30 := ⟨min k.toInt.toNat 29, by omega⟩

/-- A bin between 0 and 29 is the 32-bit word of its lane. -/
theorem eq_ofNat_binLane (k : BitVec 32) (h0 : 0 ≤ k.toInt) (h29 : k.toInt ≤ 29) : k = BitVec.ofNat 32 (binLane k).val := by
  apply BitVec.eq_of_toNat_eq
  have hc := BitVec.toInt_eq_toNat_cond k
  have hlt : k.toNat < 4294967296 := k.isLt
  have hl : (binLane k).val = k.toInt.toNat := by unfold binLane; simp only; omega
  rw [BitVec.toNat_ofNat, hl]
  norm_num at hc ⊢
  split_ifs at hc <;> omega

/-- Membership in bin `b` as a float: one when the element's bin is `b`, zero otherwise. -/
def ind (k b : BitVec 32) : Ideal .f32 := FloatOps.sitofp (F := Ideal) .f32 ((IntOp.cmpi .eq k b).setWidth 32)

theorem ind_eq (k b : BitVec 32) : ind k b = if k = b then (1 : EReal) else 0 := by
  have hs : ∀ w : BitVec 32, FloatOps.sitofp (F := Ideal) .f32 w = ((w.toInt : ℝ) : EReal) := fun _ => rfl
  have h1 : ((BitVec.ofBool true).setWidth 32 : BitVec 32).toInt = 1 := by decide
  have h0 : ((BitVec.ofBool false).setWidth 32 : BitVec 32).toInt = 0 := by decide
  unfold ind IntOp.cmpi
  rw [hs]
  by_cases h : k = b
  · have e : (k == b) = true := by simpa using h
    rw [if_pos h, e, h1]; simp
  · have e : (k == b) = false := by simpa using h
    rw [if_neg h, e, h0]; simp

/-- An element's loss before weighting: `softplus x − x·t`, the softplus as `max(x, 0) + log(1 + e^{−|x − 0|})` behind a
    guard `(x − 0) ≠ (x − 0)` that no extended real satisfies. -/
def bce (x : Ideal .f32) (t : BitVec 32) : Ideal .f32 :=
  FloatOps.subf (F := Ideal)
    (Scalar.select
      (FloatOps.cmpf (F := Ideal) .one (FloatOps.subf (F := Ideal) x (FloatOps.ofBits (F := Ideal) .f32 0x00000000#32))
        (FloatOps.subf (F := Ideal) x (FloatOps.ofBits (F := Ideal) .f32 0x00000000#32)))
      (FloatOps.addf (F := Ideal) x (FloatOps.ofBits (F := Ideal) .f32 0x00000000#32))
      (FloatOps.addf (F := Ideal) (FloatOps.maximumf (F := Ideal) x (FloatOps.ofBits (F := Ideal) .f32 0x00000000#32))
        (FloatOps.log1p (F := Ideal) (FloatOps.exp (F := Ideal) (FloatOps.subf (F := Ideal) (FloatOps.ofBits (F := Ideal) .f32 0x00000000#32)
          (FloatOps.absf (F := Ideal) (FloatOps.subf (F := Ideal) x (FloatOps.ofBits (F := Ideal) .f32 0x00000000#32))))))))
    (FloatOps.mulf (F := Ideal) x (FloatOps.sitofp (F := Ideal) .f32 t))

/-- An element's weighted loss, against a table of thirty weights. -/
def lossElt (x : Ideal .f32) (t : BitVec 32) (tab : Fin 30 → Ideal .f32) : Ideal .f32 :=
  FloatOps.mulf (F := Ideal) (bce x t) (tab (binLane (bin x t)))

/-! ## The weights, from a histogram -/

/-- The thirty bin weights before the division by the number of non-empty bins. -/
def binW (N : S30.Idx → Ideal .f32) : S30.Idx → Ideal .f32 :=
  select (cmpf (F := Ideal) .ogt N (broadcastInDim S30 ![] (by decide) (constant (F := Ideal) S0 .f32 0x00000000#32)))
    (Host.divf (F := Ideal) (broadcastInDim S30 ![] (by decide) (constant (F := Ideal) S0 .f32 0x4C000000#32))
      (maximumf (F := Ideal) (mulf (F := Ideal) (broadcastInDim S30 ![] (by decide) (constant (F := Ideal) S0 .f32 0x3F000000#32)) N)
        (broadcastInDim S30 ![] (by decide) (constant (F := Ideal) S0 .f32 0x2B8CBCCC#32))))
    (broadcastInDim S30 ![] (by decide) (id (constant (F := Ideal) S0 .f32 0x00000000#32)))

/-- The number of non-empty bins, at least one. -/
def nVal (N : S30.Idx → Ideal .f32) : S0.Idx → Ideal .f32 :=
  maximumf (F := Ideal)
    (Host.reduceAdd (F := Ideal) (axes := [0]) (t := S0) (uitofp (F := Ideal) .f32 (cmpf (F := Ideal) .ogt N (broadcastInDim S30 ![] (by decide) (constant (F := Ideal) S0 .f32 0x00000000#32))))
      (constant (F := Ideal) S0 .f32 0x00000000#32) (by decide) (by decide))
    (constant (F := Ideal) S0 .f32 0x3F800000#32)

/-- The weight table: lane `b` holds bin `b`'s weight over the number of non-empty bins. -/
def wTab (N : S30.Idx → Ideal .f32) : Fin 30 → Ideal .f32 :=
  fun b => FloatOps.hostDivf (F := Ideal) (binW N (ix1 b)) (nVal N ix0)

/-! ## The whole arrays -/

/-- The histogram: how many elements fall in each bin. -/
def hist (x : SA.Idx → Ideal .f32) (t : SA.Idx → BitVec 32) : S30.Idx → Ideal .f32 :=
  fun b => ∑ i : SA.Idx, ind (bin (x i) (t i)) (BitVec.ofNat 32 (b 0).val)

/-- The sum of all weighted losses. -/
def total (x : SA.Idx → Ideal .f32) (t : SA.Idx → BitVec 32) : Ideal .f32 :=
  ∑ i : SA.Idx, lossElt (x i) (t i) (wTab (hist x t))

/-- The loss: the sum over the number of elements, `2²⁵`. -/
def result (x : SA.Idx → Ideal .f32) (t : SA.Idx → BitVec 32) : Ideal .f32 :=
  FloatOps.hostDivf (F := Ideal) (total x t) (FloatOps.ofBits (F := Ideal) .f32 0x4C000000#32)

end Cert.GhmSpec

end
-- ==== Proof.KernelRunSpec.lean ====
import proofs.«124200_j9895604649991_1_alg».proof.Proof.KernelRun
import proofs.«124200_j9895604649991_1_alg».proof.Proof.Spec

/-! # The kernel's weight table is the loss's: the staged host operations against the scalar statement -/

noncomputable section

namespace Cert.KernelIdeal.KRun

open Idealize.ShloMosaic Idealize.ShloMosaic.ValueIdx
open Cert.KernelIdeal

/-- The bin weights, operation for operation. -/
theorem binw_eq_spec (N : Vec Ideal S30 .f32) : binw (F := Ideal) N = Cert.GhmSpec.binW N := rfl

/-- The number of populated bins, operation for operation. -/
theorem nval_eq_spec (N : Vec Ideal S30 .f32) : nval (F := Ideal) N = Cert.GhmSpec.nVal N := rfl

/-- Entry `b` of the table: the bin's weight over the number of populated bins (a scalar broadcast read at any index is
    the scalar at its one index). -/
theorem wtab30_eq_spec (N : Vec Ideal S30 .f32) (b : Fin 30) : wtab30 (F := Ideal) N (ix1 b) = Cert.GhmSpec.wTab N b :=
  congrArg (fun i => FloatOps.hostDivf (F := Ideal) (binw (F := Ideal) N (ix1 b)) (nval (F := Ideal) N i))
    (funext fun a => a.elim0)

end Cert.KernelIdeal.KRun

end
-- ==== Proof.HistPoint.lean ====
/-
  The first region, point by point, as values.

  At every grid point the body counts, for each of the thirty bins, the elements of the point's row block that fall in
  it, lays the thirty counts out in the first thirty lanes of a [1,128] row (zeros behind), and adds that row to the
  output block, which stays in place from one point to the next; the first point starts from a row of zeros it stores
  itself. So after point `n` the block holds the zero row plus the count rows of blocks `0 … n`, added in that order,
  and after the last point that running sum is written back once and is the whole result array of the region.
-/
import proofs.«124200_j9895604649991_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HistVal

open Cert.KernelIdeal Cert.KernelIdeal.Gen

variable {F : FTy → Type} [FloatOps F]

theorem hz : (![0, 0] : Fin 2 → Nat) = fun _ => 0 := funext fun a => by fin_cases a <;> rfl

/-- The thirty counts of one row block `x0` (logits) and `x1` (targets), as a vector of thirty lanes. -/
def cntVec (x0 : Vec F S512x4096 .f32) (x1 : Vec F S512x4096 .i32) : FVec F S30 .f32 :=
  k0_pay36 (k0_pay3 x0 x1) (k0_pay4 x0 x1) (k0_pay5 x0 x1) (k0_pay6 x0 x1) (k0_pay8 (k0_pay7 x0 x1))
    (k0_pay9 (k0_pay3 x0 x1)) (k0_pay10 (k0_pay3 x0 x1)) (k0_pay11 (k0_pay3 x0 x1)) (k0_pay12 (k0_pay3 x0 x1))
    (k0_pay13 (k0_pay3 x0 x1)) (k0_pay15 (k0_pay14 (k0_pay3 x0 x1))) (k0_pay16 (k0_pay3 x0 x1))
    (k0_pay17 (k0_pay3 x0 x1)) (k0_pay18 (k0_pay3 x0 x1)) (k0_pay19 (k0_pay3 x0 x1)) (k0_pay20 (k0_pay3 x0 x1))
    (k0_pay22 (k0_pay21 (k0_pay3 x0 x1))) (k0_pay23 (k0_pay3 x0 x1)) (k0_pay24 (k0_pay3 x0 x1))
    (k0_pay25 (k0_pay3 x0 x1)) (k0_pay26 (k0_pay3 x0 x1)) (k0_pay27 (k0_pay3 x0 x1))
    (k0_pay29 (k0_pay28 (k0_pay3 x0 x1))) (k0_pay30 (k0_pay3 x0 x1)) (k0_pay31 (k0_pay3 x0 x1))
    (k0_pay32 (k0_pay3 x0 x1)) (k0_pay33 (k0_pay3 x0 x1)) (k0_pay34 (k0_pay3 x0 x1)) (k0_pay35 (k0_pay3 x0 x1))

/-- One point's step: the block it finds, plus the block's count row. -/
def step (x0 : Vec F S512x4096 .f32) (x1 : Vec F S512x4096 .i32) (prev : Vec F S1x128 .f32) : Vec F S1x128 .f32 :=
  k0_pay1 (cntVec x0 x1) k0_pay37 prev

/-- The row of zeros the first point stores. -/
abbrev zeroRow : Vec F S1x128 .f32 := k0_pay2

/-- A later point leaves, in the output block holding `xo`, `xo` plus the count row of its input blocks: its one
    covering store's payload, whose loads read the whole buffers. -/
theorem out_B (c : Dev nD) (i : grid0.Coords) (a1 : Memref sig .tc .vmem S512x4096 .f32) (h1 : a1.IsWhole)
    (a2 : Memref sig .tc .vmem S512x4096 .i32) (h2 : a2.IsWhole) (a3 : Memref sig .tc .vmem S1x128 .f32) (h3 : a3.IsWhole)
    (hc : ¬cond0_0 i) (x0 : Vec F S512x4096 .f32) (x1 : Vec F S512x4096 .i32) (xo : Vec F S1x128 .f32) :
    out0_B_2 c i a1 h1 a2 h2 a3 h3 hc x0 x1 xo = step x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz]
  simp only [View.readAt_eq_ld, h1.read_unread, h2.read_unread, h3.read_unread, View.ld_unit_zero (S := S1x128) hz,
    View.ld_unit_zero (S := S512x4096) hz]
  rfl

/-- The first point stores the row of zeros, reads it back, and leaves it plus the count row of its input blocks. -/
theorem out_A (c : Dev nD) (i : grid0.Coords) (a1 : Memref sig .tc .vmem S512x4096 .f32) (h1 : a1.IsWhole)
    (a2 : Memref sig .tc .vmem S512x4096 .i32) (h2 : a2.IsWhole) (a3 : Memref sig .tc .vmem S1x128 .f32) (h3 : a3.IsWhole)
    (hc : cond0_0 i) (x0 : Vec F S512x4096 .f32) (x1 : Vec F S512x4096 .i32) :
    out0_A_2 c i a1 h1 a2 h2 a3 h3 hc x0 x1 = step x0 x1 zeroRow := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x128) hz, View.readCov_unit_zero (S := S1x128) _ hz]
  simp only [View.readAt_eq_ld, h1.read_unread, h2.read_unread, View.ld_unit_zero (S := S1x128) hz,
    View.ld_unit_zero (S := S512x4096) hz]
  rfl

variable (V : (c : Dev nD) → (b : Ref sig .tc) → Buf (Elt F) ((c : Thread nD τ).loc b))

/-- The running histogram after point `n`: the zero row plus the count rows of blocks `0 … n`, in order. -/
def chain (c : Dev nD) : (n : ℕ) → n < cfg0.N → Vec F S1x128 .f32
  | 0, h => step (iblk0 V c 0 ⟨0, h⟩) (iblk0 V c 1 ⟨0, h⟩) zeroRow
  | n + 1, h => step (iblk0 V c 0 ⟨n + 1, h⟩) (iblk0 V c 1 ⟨n + 1, h⟩) (chain c n (Nat.lt_of_succ_lt h))

/-- What the output block holds after point `n` is the running histogram, by induction on the point. -/
theorem outsAt_eq (c : Dev nD) : ∀ (n : ℕ) (h : n < cfg0.N), outsAt0 V c n h = chain V c n h
  | 0, h => (outsAt0_A V c ⟨0, h⟩ rfl).trans (out_A ..)
  | n + 1, h => by
    have hN : cfg0.N = 16 := N_0
    have hB : ¬(⟨n + 1, h⟩ : Fin cfg0.N).val % 16 = 0 := by dsimp only; omega
    rw [outsAt0_B V c ⟨n + 1, h⟩ hB, out_B]
    show step _ _ (outsAt0 V c n _) = step _ _ (chain V c n _)
    rw [outsAt_eq c n]

/-- The region's result: the running histogram after the last point. -/
abbrev result (c : Dev nD) : Buf (Elt F) ((c : Thread nD τ).loc main_v0) := chain V c 15 (by rw [show cfg0.N = 16 from N_0]; decide)

/-- The one write-back, at point 15, writes it: block (0, 0) of the [1,128] array read through zero offsets is the array. -/
theorem flushed_eq (c : Dev nD) (t : Fin cfg0.N) (hf : (cfg0.win 2).flush t = true) :
    (dat0 V c).flushed 2 t = ((cfg0.win 2).blk t).view.read (Elt F) (result V c) := by
  have hN : cfg0.N = 16 := N_0
  have h15 : t.val = 15 := by have := (flush0_2 t).mp hf; have := t.isLt; omega
  obtain rfl : t = t0_15 := Fin.ext h15
  show (cfg0.win 2).cut (grid0.coords t0_15) ((dat0 V c).after 2 t0_15) = _
  rw [after0_2, outsAt_eq]
  have hz' : (fun a => win0_2.index t0_15 a * main_v0.ty.shape.size a) = fun _ => 0 := funext fun a => by fin_cases a <;> decide
  exact (Memref.read_access_unit_zero (Elt F) main_v0 hz' (fun a => by rw [congrFun hz' a]; simp) (result V c)).symm

/-- So the region's result array ends holding the running histogram after point 15, which covers it. -/
theorem final_hist (c : Dev nD) : (dat0 V c).arrAt 2 cfg0.N = result V c :=
  (dat0 V c).arrAt_eq_of_cover 2 (result V c) (flushed_eq V c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 1 := (i 0).isLt
      have h1 : (i 1 : Nat) < 128 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 1 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 128 from by decide +kernel]; omega⟩

end Cert.KernelIdeal.HistVal

end
-- ==== Proof.HistValue.lean ====
/-
  The first region's result, read at the extended reals.

  A count is a lane reduction of zeros and ones: the sum, over the row block, of the indicator that an element's bin is
  the lane's bin. Lane `b < 30` of the running histogram after point `n` is therefore zero plus the counts of bin `b`
  in blocks `0 … n`, and after the last point it is the sum over all sixteen blocks.
-/
import proofs.«124200_j9895604649991_1_alg».proof.Proof.HistPoint
import proofs.«124200_j9895604649991_1_alg».proof.Proof.Spec
import Idealize.ShloMosaic.PureOps.Ideal.Laws
import Idealize.ShloMosaic.Lib.ValueLayout
import Idealize.ShloMosaic.Lib.ValueIdx

noncomputable section

open Idealize.ShloMosaic Idealize.ShloMosaic.TcCoe Idealize.SL.Sem Idealize.ShloMosaic.ValueIdx

namespace Cert.KernelIdeal.HistVal

open Cert.KernelIdeal Cert.KernelIdeal.Gen
open Cert.GhmSpec (ind bin)

/-- The number of elements of a block whose bin (the integer vector `v`) is `k`, as the body computes it: the indicator
    vector summed over the block's two axes. -/
def cntOf (v : IVec S512x4096 32) (k : BitVec 32) : Ideal .f32 :=
  extractAt ![0, 0, 0] (shapeCast S1x1x1 (multiReduction (F := Ideal) .add [1, 2] S1
    (shapeCast S1x512x4096 (sitofp (F := Ideal) .f32 (extui 32 (cmpi .eq v (broadcast S512x4096 k)) natLt_1_32)) shapeCasts_S512x4096_S1x512x4096)
    0x00000000#32 reduces_S1x512x4096_S1 (.inl rfl) rfl) shapeCasts_S1_S1x1x1) inpos_S1x1x1_p0_0_0

/-- It is the sum of the indicators: a reduction into a one-element shape is the total sum, and adding a unit axis in
    front only renames the indices. -/
theorem cntOf_eq (v : IVec S512x4096 32) (k : BitVec 32) : cntOf v k = ∑ y : S512x4096.Idx, ind (v y) k := by
  unfold cntOf extractAt
  refine (Ideal.multiReduction_add_total (φ := .f32) _ 0x00000000#32 reduces_S1x512x4096_S1 (fun b => by fin_cases b; rfl) (.inl rfl) rfl _).trans ?_
  exact Equiv.sum_comp (Shape.reshapeEquiv shapeCasts_S512x4096_S1x512x4096) (fun y => ind (v y) k)

/-- Thirty one-lane pieces laid end to end: lane `b` is piece `b`. -/
theorem lanes30 (c : Fin 30 → Ideal .f32)
    (h : Shape.Concatenates (([⟨S1, broadcast S1 (c 0)⟩, ⟨S1, broadcast S1 (c 1)⟩, ⟨S1, broadcast S1 (c 2)⟩, ⟨S1, broadcast S1 (c 3)⟩, ⟨S1, broadcast S1 (c 4)⟩, ⟨S1, broadcast S1 (c 5)⟩, ⟨S1, broadcast S1 (c 6)⟩, ⟨S1, broadcast S1 (c 7)⟩, ⟨S1, broadcast S1 (c 8)⟩, ⟨S1, broadcast S1 (c 9)⟩, ⟨S1, broadcast S1 (c 10)⟩, ⟨S1, broadcast S1 (c 11)⟩, ⟨S1, broadcast S1 (c 12)⟩, ⟨S1, broadcast S1 (c 13)⟩, ⟨S1, broadcast S1 (c 14)⟩, ⟨S1, broadcast S1 (c 15)⟩, ⟨S1, broadcast S1 (c 16)⟩, ⟨S1, broadcast S1 (c 17)⟩, ⟨S1, broadcast S1 (c 18)⟩, ⟨S1, broadcast S1 (c 19)⟩, ⟨S1, broadcast S1 (c 20)⟩, ⟨S1, broadcast S1 (c 21)⟩, ⟨S1, broadcast S1 (c 22)⟩, ⟨S1, broadcast S1 (c 23)⟩, ⟨S1, broadcast S1 (c 24)⟩, ⟨S1, broadcast S1 (c 25)⟩, ⟨S1, broadcast S1 (c 26)⟩, ⟨S1, broadcast S1 (c 27)⟩, ⟨S1, broadcast S1 (c 28)⟩, ⟨S1, broadcast S1 (c 29)⟩] : List ((s : Shape) × (s.Idx → Ideal .f32))).map (·.1)) Cert.KernelIdeal.S30 0) (b : Fin 30) :
    concatenate Cert.KernelIdeal.S30 0 [⟨S1, broadcast S1 (c 0)⟩, ⟨S1, broadcast S1 (c 1)⟩, ⟨S1, broadcast S1 (c 2)⟩, ⟨S1, broadcast S1 (c 3)⟩, ⟨S1, broadcast S1 (c 4)⟩, ⟨S1, broadcast S1 (c 5)⟩, ⟨S1, broadcast S1 (c 6)⟩, ⟨S1, broadcast S1 (c 7)⟩, ⟨S1, broadcast S1 (c 8)⟩, ⟨S1, broadcast S1 (c 9)⟩, ⟨S1, broadcast S1 (c 10)⟩, ⟨S1, broadcast S1 (c 11)⟩, ⟨S1, broadcast S1 (c 12)⟩, ⟨S1, broadcast S1 (c 13)⟩, ⟨S1, broadcast S1 (c 14)⟩, ⟨S1, broadcast S1 (c 15)⟩, ⟨S1, broadcast S1 (c 16)⟩, ⟨S1, broadcast S1 (c 17)⟩, ⟨S1, broadcast S1 (c 18)⟩, ⟨S1, broadcast S1 (c 19)⟩, ⟨S1, broadcast S1 (c 20)⟩, ⟨S1, broadcast S1 (c 21)⟩, ⟨S1, broadcast S1 (c 22)⟩, ⟨S1, broadcast S1 (c 23)⟩, ⟨S1, broadcast S1 (c 24)⟩, ⟨S1, broadcast S1 (c 25)⟩, ⟨S1, broadcast S1 (c 26)⟩, ⟨S1, broadcast S1 (c 27)⟩, ⟨S1, broadcast S1 (c 28)⟩, ⟨S1, broadcast S1 (c 29)⟩] h (ix1 b) = c b := by
  show concatenate Cert.KernelIdeal.S30 0 (List.ofFn fun n : Fin 30 => (⟨S1, broadcast S1 (c n)⟩ : (s : Shape) × (s.Idx → Ideal .f32))) h (ix1 b) = c b
  exact concatenate_ofFn_unit_apply (t := Cert.KernelIdeal.S30) (s₁ := S1) 0 (fun n => broadcast S1 (c n)) h rfl rfl (ix1 b) b rfl (ix1 (0 : Fin 1))
    (fun b' hb => absurd (Subsingleton.elim _ _) hb)

/-- Lane `b` of a block's count vector is the count of bin `b`. -/
theorem cntVec_lane (x0 : Vec Ideal S512x4096 .f32) (x1 : Vec Ideal S512x4096 .i32) (b : Fin 30) :
    cntVec (F := Ideal) x0 x1 (ix1 b) = cntOf (k0_pay3 x0 x1) (BitVec.ofNat 32 b.val) := by
  unfold cntVec k0_pay36
  exact lanes30 (fun n => cntOf (k0_pay3 x0 x1) (BitVec.ofNat 32 n.val)) _ b

/-- The lane of the [1,128] row that holds bin `b`. -/
abbrev lane (b : Fin 30) : S1x128.Idx := ix2 (0 : Fin 1) (⟨b.val, Nat.lt_of_lt_of_le b.isLt (by decide)⟩ : Fin 128)

/-- One point's step at a bin's lane: what the block held there, plus the count of that bin in the point's row block. -/
theorem step_lane (x0 : Vec Ideal S512x4096 .f32) (x1 : Vec Ideal S512x4096 .i32) (prev : Vec Ideal S1x128 .f32) (b : Fin 30) :
    step (F := Ideal) x0 x1 prev (lane b) = prev (lane b) + cntOf (k0_pay3 x0 x1) (BitVec.ofNat 32 b.val) := by
  rw [← cntVec_lane]
  unfold step k0_pay1
  show (shapeCast S1x128 prev shapeCasts_S1x128_S1x128 (lane b) : EReal)
      + shapeCast S1x128 (concatenate S128 0 [⟨Cert.KernelIdeal.S30, cntVec x0 x1⟩, ⟨S98, broadcast S98 (k0_pay37 (F := Ideal))⟩] concatenates_S30_S98_S128_d0) shapeCasts_S128_S1x128 (lane b) = _
  rw [shapeCast_self, shapeCast_a_1a_apply]
  congr 1
  exact concatenate_pair_apply_left (t := S128) (s₁ := Cert.KernelIdeal.S30) (s₂ := S98) 0 (cntVec x0 x1) (broadcast S98 (k0_pay37 (F := Ideal)))
    concatenates_S30_S98_S128_d0 _ rfl (ix1 b) (fun b' => by match b' with | ⟨0, _⟩ => rfl)

variable (V : (c : Dev nD) → (b : Ref sig .tc) → Buf (Elt Ideal) ((c : Thread nD τ).loc b))

/-- The count of bin `b` in row block `k` (zero past the grid). -/
def blkCnt (c : Dev nD) (b : Fin 30) (k : ℕ) : Ideal .f32 :=
  if hk : k < cfg0.N then cntOf (k0_pay3 (iblk0 V c 0 ⟨k, hk⟩) (iblk0 V c 1 ⟨k, hk⟩)) (BitVec.ofNat 32 b.val) else 0

/-- Lane `b` of the running histogram after point `n`: zero plus the counts of bin `b` in blocks `0 … n`. -/
theorem chain_lane (c : Dev nD) (b : Fin 30) : ∀ (n : ℕ) (h : n < cfg0.N),
    chain (F := Ideal) V c n h (lane b) = 0 + ∑ k ∈ Finset.range (n + 1), blkCnt V c b k
  | 0, h => by
    rw [chain, step_lane]
    have hz0 : (zeroRow (F := Ideal)) (lane b) = 0 := Ideal.ofBits_zero_f32
    rw [hz0, Finset.sum_range_one, blkCnt, dif_pos h]
  | n + 1, h => by
    have e : blkCnt V c b (n + 1)
        = cntOf (k0_pay3 (iblk0 V c 0 ⟨n + 1, h⟩) (iblk0 V c 1 ⟨n + 1, h⟩)) (BitVec.ofNat 32 b.val) := by
      rw [blkCnt, dif_pos h]
    rw [chain, step_lane, chain_lane c b n, Finset.sum_range_succ _ (n + 1), e, add_assoc]

/-- Lane `b` of the region's result: the number of elements, over all sixteen row blocks, whose bin is `b`. -/
theorem result_lane (c : Dev nD) (b : Fin 30) :
    result (F := Ideal) V c (lane b) = ∑ k : Fin cfg0.N, ∑ y : S512x4096.Idx,
      ind (k0_pay3 (iblk0 V c 0 k) (iblk0 V c 1 k) y) (BitVec.ofNat 32 b.val) := by
  have hN : cfg0.N = 16 := N_0
  show chain (F := Ideal) V c 15 _ (lane b) = _
  rw [chain_lane, zero_add, show (15 + 1 : ℕ) = cfg0.N from hN.symm, Finset.sum_range]
  refine Finset.sum_congr rfl fun k _ => ?_
  rw [blkCnt, dif_pos k.isLt, cntOf_eq]

end Cert.KernelIdeal.HistVal

end
-- ==== Proof.Blocks.lean ====
/-
  Row blocks. The [8192, 4096] index set is sixteen row blocks of 512 rows: element (r, q) of block k is element
  (512·k + r, q) of the array, and a sum over the array is the sum over the blocks of the sums over each block — in any
  commutative monoid, the extended reals with their addition among them.
-/
import Idealize.ShloMosaic.Lib.ValueIdx

noncomputable section

namespace Cert.GhmSpec.Blocks

open Idealize.ShloMosaic Idealize.ShloMosaic.ValueIdx

/-- The whole index set. -/
abbrev SAll : Shape := ⟨2, ![8192, 4096]⟩
/-- One row block's index set. -/
abbrev SBlk : Shape := ⟨2, ![512, 4096]⟩

/-- Element `y` of row block `k`, as an element of the array: row `512·k + y₀`, column `y₁`. -/
def rowIdx (k : Fin 16) (y : SBlk.Idx) : SAll.Idx :=
  ix2 (⟨512 * k.val + (y 0).val, by have := idx2_lt0 y; have := k.isLt; omega⟩ : Fin 8192) (y 1)

/-- Sixteen blocks of 512 rows are the 8192 rows. -/
def rowEquiv : Fin 16 × Fin 512 ≃ Fin 8192 := finProdFinEquiv.trans (finCongr (by norm_num))

theorem rowEquiv_val (k : Fin 16) (r : Fin 512) : (rowEquiv (k, r)).val = r.val + 512 * k.val := rfl

/-- A sum over the array, block by block. -/
theorem sum_blocks {M : Type*} [AddCommMonoid M] (g : SAll.Idx → M) :
    ∑ k : Fin 16, ∑ y : SBlk.Idx, g (rowIdx k y) = ∑ i : SAll.Idx, g i := by
  have hrow : ∀ (k : Fin 16) (r : Fin 512) (q : Fin 4096), rowIdx k (ix2 r q) = ix2 (rowEquiv (k, r)) q := by
    intro k r q
    unfold rowIdx
    congr 1
    apply Fin.ext
    rw [rowEquiv_val]
    show 512 * k.val + r.val = r.val + 512 * k.val
    omega
  calc ∑ k : Fin 16, ∑ y : SBlk.Idx, g (rowIdx k y)
      = ∑ k : Fin 16, ∑ r : Fin 512, ∑ q : Fin 4096, g (ix2 (rowEquiv (k, r)) q) := by
        refine Finset.sum_congr rfl fun k _ => ?_
        rw [sum_idx2]
        exact Finset.sum_congr rfl fun r _ => Finset.sum_congr rfl fun q _ => by rw [hrow]
    _ = ∑ kr : Fin 16 × Fin 512, ∑ q : Fin 4096, g (ix2 (rowEquiv kr) q) := (Fintype.sum_prod_type (fun kr : Fin 16 × Fin 512 => ∑ q : Fin 4096, g (ix2 (rowEquiv kr) q))).symm
    _ = ∑ p : Fin 8192, ∑ q : Fin 4096, g (ix2 p q) := Equiv.sum_comp rowEquiv (fun p => ∑ q : Fin 4096, g (ix2 p q))
    _ = ∑ i : SAll.Idx, g i := (sum_idx2 g).symm

/-- A running sum that starts at zero and adds one term per point is zero plus the sum of the terms. -/
theorem chain_sum {M : Type*} [AddCommMonoid M] (z : M) (f : ℕ → M) (a : ℕ → M) (h0 : a 0 = z + f 0)
    (hs : ∀ n, a (n + 1) = a n + f (n + 1)) : ∀ n, a n = z + ∑ k ∈ Finset.range (n + 1), f k
  | 0 => by rw [h0]; simp
  | n + 1 => by rw [hs, chain_sum z f a h0 hs n, Finset.sum_range_succ _ (n + 1), add_assoc]

end Cert.GhmSpec.Blocks

end
-- ==== Proof.BlockReads.lean ====
import proofs.«124200_j9895604649991_1_alg».proof.Proof.Gen.KernelIdeal.Frame
import proofs.«124200_j9895604649991_1_alg».proof.Proof.Blocks

/-! # What each window's block reads from its array -/

set_option maxRecDepth 16384

noncomputable section

namespace Cert.KernelIdeal.Reads

open Idealize.ShloMosaic Idealize.ShloMosaic.TcCoe Idealize.ShloMosaic.Tactic
open Idealize.ShloMosaic.ValueIdx
open Idealize.ShloMosaic.Pipeline (Dat Cfg Window BodyObligation cellOf)
open Cert.KernelIdeal Cert.KernelIdeal.Gen

variable {F : FTy → Type} [FloatOps F]

-- the TensorCore's buffer contents when a region is entered
variable (V : (c : Dev nD) → (b : Ref sig .tc) → Buf (Elt F) ((c : Thread nD τ).loc b))

/-! ## Region 0: the two argument arrays by row blocks -/

/-- Region 0's window 0 steps down the rows, one block of 512 per point, and does not move along the columns. -/
theorem index0_0 (t : Fin cfg0.N) : win0_0.index t 0 = t.val ∧ win0_0.index t 1 = 0 :=
  (by decide +kernel : ∀ t : Fin grid0.N, win0_0.index t 0 = t.val ∧ win0_0.index t 1 = 0) t

/-- Element `y` of the block region 0's window 0 stages at point `t` is element `(512·t + y₀, y₁)` of the logits. -/
theorem iblk0_x (c : Dev nD) (t : Fin cfg0.N) (y : S512x4096.Idx) :
    (iblk0 V c 0 t : S512x4096.Idx → Elt F .f32) y
      = V c main_arg0 (Cert.GhmSpec.Blocks.rowIdx ⟨t.val, lt_of_lt_of_eq t.isLt (show cfg0.N = 16 from N_0)⟩ y) := by
  have hi := index0_0 t
  unfold iblk0
  rw [View.read_apply]
  show V c main_arg0 _ = V c main_arg0 _
  congr 1
  funext a
  apply Fin.ext
  match a with
  | ⟨0, _⟩ => show win0_0.index t 0 * 512 + 1 * (y 0).val = 512 * t.val + (y 0).val; rw [hi.1]; omega
  | ⟨1, _⟩ => show win0_0.index t 1 * 4096 + 1 * (y 1).val = (y 1).val; rw [hi.2]; omega

/-- Region 0's window 1 steps down the rows, one block of 512 per point, and does not move along the columns. -/
theorem index0_1 (t : Fin cfg0.N) : win0_1.index t 0 = t.val ∧ win0_1.index t 1 = 0 :=
  (by decide +kernel : ∀ t : Fin grid0.N, win0_1.index t 0 = t.val ∧ win0_1.index t 1 = 0) t

/-- Element `y` of the block region 0's window 1 stages at point `t` is element `(512·t + y₀, y₁)` of the targets. -/
theorem iblk0_t (c : Dev nD) (t : Fin cfg0.N) (y : S512x4096.Idx) :
    (iblk0 V c 1 t : S512x4096.Idx → Elt F .i32) y
      = V c main_arg1 (Cert.GhmSpec.Blocks.rowIdx ⟨t.val, lt_of_lt_of_eq t.isLt (show cfg0.N = 16 from N_0)⟩ y) := by
  have hi := index0_1 t
  unfold iblk0
  rw [View.read_apply]
  show V c main_arg1 _ = V c main_arg1 _
  congr 1
  funext a
  apply Fin.ext
  match a with
  | ⟨0, _⟩ => show win0_1.index t 0 * 512 + 1 * (y 0).val = 512 * t.val + (y 0).val; rw [hi.1]; omega
  | ⟨1, _⟩ => show win0_1.index t 1 * 4096 + 1 * (y 1).val = (y 1).val; rw [hi.2]; omega

/-! ## Region 1: the two argument arrays by row blocks, the weight table whole -/

/-- Region 1's window 0 steps down the rows, one block of 512 per point, and does not move along the columns. -/
theorem index1_0 (t : Fin cfg1.N) : win1_0.index t 0 = t.val ∧ win1_0.index t 1 = 0 :=
  (by decide +kernel : ∀ t : Fin grid1.N, win1_0.index t 0 = t.val ∧ win1_0.index t 1 = 0) t

/-- Element `y` of the block region 1's window 0 stages at point `t` is element `(512·t + y₀, y₁)` of the logits. -/
theorem iblk1_x (c : Dev nD) (t : Fin cfg1.N) (y : S512x4096.Idx) :
    (iblk1 V c 0 t : S512x4096.Idx → Elt F .f32) y
      = V c main_arg0 (Cert.GhmSpec.Blocks.rowIdx ⟨t.val, lt_of_lt_of_eq t.isLt (show cfg1.N = 16 from N_1)⟩ y) := by
  have hi := index1_0 t
  unfold iblk1
  rw [View.read_apply]
  show V c main_arg0 _ = V c main_arg0 _
  congr 1
  funext a
  apply Fin.ext
  match a with
  | ⟨0, _⟩ => show win1_0.index t 0 * 512 + 1 * (y 0).val = 512 * t.val + (y 0).val; rw [hi.1]; omega
  | ⟨1, _⟩ => show win1_0.index t 1 * 4096 + 1 * (y 1).val = (y 1).val; rw [hi.2]; omega

/-- Region 1's window 1 steps down the rows, one block of 512 per point, and does not move along the columns. -/
theorem index1_1 (t : Fin cfg1.N) : win1_1.index t 0 = t.val ∧ win1_1.index t 1 = 0 :=
  (by decide +kernel : ∀ t : Fin grid1.N, win1_1.index t 0 = t.val ∧ win1_1.index t 1 = 0) t

/-- Element `y` of the block region 1's window 1 stages at point `t` is element `(512·t + y₀, y₁)` of the targets. -/
theorem iblk1_t (c : Dev nD) (t : Fin cfg1.N) (y : S512x4096.Idx) :
    (iblk1 V c 1 t : S512x4096.Idx → Elt F .i32) y
      = V c main_arg1 (Cert.GhmSpec.Blocks.rowIdx ⟨t.val, lt_of_lt_of_eq t.isLt (show cfg1.N = 16 from N_1)⟩ y) := by
  have hi := index1_1 t
  unfold iblk1
  rw [View.read_apply]
  show V c main_arg1 _ = V c main_arg1 _
  congr 1
  funext a
  apply Fin.ext
  match a with
  | ⟨0, _⟩ => show win1_1.index t 0 * 512 + 1 * (y 0).val = 512 * t.val + (y 0).val; rw [hi.1]; omega
  | ⟨1, _⟩ => show win1_1.index t 1 * 4096 + 1 * (y 1).val = (y 1).val; rw [hi.2]; omega

/-- Region 1's window 2 stays at the origin: its one block is the whole [1,128] table. -/
theorem index1_2 (t : Fin cfg1.N) : win1_2.index t 0 = 0 ∧ win1_2.index t 1 = 0 :=
  (by decide +kernel : ∀ t : Fin grid1.N, win1_2.index t 0 = 0 ∧ win1_2.index t 1 = 0) t

/-- At every point region 1's window 2 stages the whole weight table. -/
theorem iblk1_tab (c : Dev nD) (t : Fin cfg1.N) :
    (iblk1 V c 2 t : S1x128.Idx → Elt F .f32) = V c main_v20 := by
  have hi := index1_2 t
  funext y
  unfold iblk1
  rw [View.read_apply]
  show V c main_v20 _ = V c main_v20 y
  congr 1
  funext a
  apply Fin.ext
  match a with
  | ⟨0, _⟩ => show win1_2.index t 0 * 1 + 1 * (y 0).val = (y 0).val; rw [hi.1]; omega
  | ⟨1, _⟩ => show win1_2.index t 1 * 128 + 1 * (y 1).val = (y 1).val; rw [hi.2]; omega

end Cert.KernelIdeal.Reads

end
-- ==== Proof.HistTotal.lean ====
/-
  The histogram the kernel hands to its host operations.

  The host reads the first thirty lanes of the first region's result. Lane `b` is the sum, over the sixteen row blocks and
  over each block, of the indicator that an element's bin is `b`; an element of block `k` is an element of the array, its
  bin is computed from the array's entries there, and the blocks partition the array: the thirty lanes are the histogram.
-/
import proofs.«124200_j9895604649991_1_alg».proof.Proof.HistValue
import proofs.«124200_j9895604649991_1_alg».proof.Proof.BlockReads
import proofs.«124200_j9895604649991_1_alg».proof.Proof.Blocks
import proofs.«124200_j9895604649991_1_alg».proof.Proof.KernelRun
import proofs.«124200_j9895604649991_1_alg».proof.Proof.Spec

noncomputable section

open Idealize.ShloMosaic Idealize.ShloMosaic.TcCoe Idealize.SL.Sem Idealize.ShloMosaic.ValueIdx

namespace Cert.KernelIdeal.HistVal

open Cert.KernelIdeal Cert.KernelIdeal.Gen
open Cert.GhmSpec (ind bin)
open Cert.GhmSpec.Blocks (rowIdx sum_blocks)

variable (V : (c : Dev nD) → (b : Ref sig .tc) → Buf (Elt Ideal) ((c : Thread nD τ).loc b))

/-- The bin vector of a block is the elements' bins. -/
theorem pay3_apply (x0 : Vec Ideal S512x4096 .f32) (x1 : Vec Ideal S512x4096 .i32) (y : S512x4096.Idx) :
    k0_pay3 (F := Ideal) x0 x1 y = bin (x0 y) (x1 y) := rfl

/-- The thirty lanes the host reads off the first region's result are the histogram of the arrays the region found. -/
theorem numInBin_result (c : Dev nD) :
    Cert.KernelIdeal.KRun.numInBin (F := Ideal) (result (F := Ideal) V c)
      = Cert.GhmSpec.hist (V c main_arg0) (V c main_arg1) := by
  funext j
  obtain ⟨b, rfl⟩ : ∃ b : Fin 30, j = ix1 b := ⟨j 0, eq_ix1 j⟩
  rw [Cert.KernelIdeal.KRun.numInBin_apply]
  have key : (∑ k : Fin cfg0.N, ∑ y : S512x4096.Idx,
        ind (k0_pay3 (F := Ideal) (iblk0 V c 0 k) (iblk0 V c 1 k) y) (BitVec.ofNat 32 b.val) : EReal)
      = ∑ i : Cert.GhmSpec.Blocks.SAll.Idx, ind (bin (V c main_arg0 i) (V c main_arg1 i)) (BitVec.ofNat 32 b.val) := by
    rw [← sum_blocks (M := EReal) (fun i => ind (bin (V c main_arg0 i) (V c main_arg1 i)) (BitVec.ofNat 32 b.val))]
    refine Fintype.sum_equiv (finCongr N_0) _ _ fun k => ?_
    refine Finset.sum_congr rfl fun y _ => ?_
    rw [pay3_apply, Cert.KernelIdeal.Reads.iblk0_x, Cert.KernelIdeal.Reads.iblk0_t]
    rfl
  exact (result_lane V c b).trans key

end Cert.KernelIdeal.HistVal

end
-- ==== Proof.LossPoint.lean ====
/-
  The loss region of the kernel, read as values.

  The region runs sixteen grid points over row blocks of 512 rows. Point `t` reads block `t` of the logits `x0`, block `t`
  of the integer targets `x1` and the whole `[1,128]` weight table `x2`; it adds to a carried `[1,1]` block, which the first
  point resets to zero, the block's sum of (softplus x − x·t) · (the table lane named by the element's bin). This file
  states that term once (`lossBlockTerm`), reads each of the two cases' stores back as `carried + term` (`out_A`, `out_B`),
  closes the recursion over the points into the ordered chain `((0 + T₀) + T₁) + … + T₁₅` (`lossChain`, `outsAt_eq`), and
  shows the output array ends holding the last link (`final_out`).
-/
import proofs.«124200_j9895604649991_1_alg».proof.Proof.Gen.KernelIdeal.Frame
import Idealize.ShloMosaic.Lib.Pipeline.Value
import Idealize.ShloMosaic.Lib.ValueIdx
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.LossVal

open Cert.KernelIdeal Cert.KernelIdeal.Gen

variable {F : FTy → Type} [FloatOps F]

/-- The two zero offsets of a whole-block access are the constant-zero offset function. -/
theorem hz : (![0, 0] : Fin 2 → Nat) = fun _ => 0 := funext fun a => by fin_cases a <;> rfl

/-- The zero block the first point stores before it accumulates: a broadcast of `+0.0`. -/
abbrev zero : Vec F S1x1 .f32 := broadcast S1x1 (Scalar.ofBits .f32 0x00000000#32)

/-- The per-element unweighted loss of a block, `softplus x − x · t` with `t` converted to f32: the softplus is
    `max x 0 + log1p (exp (0 − |x − 0|))`, replaced by `x + 0` where `x − 0` is unordered with itself. -/
def bceV (x0 : Vec F S512x4096 .f32) (x1 : Vec F S512x4096 .i32) : FVec F S512x4096 .f32 :=
  subf
    (select (cmpf .one (subf x0 (broadcast S512x4096 (Scalar.ofBits .f32 0x00000000#32))) (subf x0 (broadcast S512x4096 (Scalar.ofBits .f32 0x00000000#32))))
      (addf x0 (broadcast S512x4096 (Scalar.ofBits .f32 0x00000000#32)))
      (addf (maximumf x0 (broadcast S512x4096 (Scalar.ofBits .f32 0x00000000#32)))
        (log1p (exp (subf (broadcast S512x4096 (Scalar.ofBits .f32 0x00000000#32))
          (absf (subf x0 (broadcast S512x4096 (Scalar.ofBits .f32 0x00000000#32)))))))))
    (mulf x0 (k1_pay3 x1))

/-- The weight each element picks from the `[1,128]` table `x2`: a chain of thirty selects on "the element's clipped
    bin (`k1_pay4`) equals `b`", `b = 0 … 29`, each taking lane `b` of the table, over `0` (the later select wins). -/
def weightV (x0 : Vec F S512x4096 .f32) (x1 : Vec F S512x4096 .i32) (x2 : Vec F S1x128 .f32) : FVec F S512x4096 .f32 :=
  select (k1_pay13 (k1_pay4 x0 x1)) (broadcast S512x4096 (extractAt ![0, 0] (k1_pay14 (k1_pay5 x2)) inpos_S1x1_p0_0))
    (k1_pay12 (k1_pay4 x0 x1) (k1_pay5 x2)
      (k1_pay11 (k1_pay4 x0 x1) (k1_pay5 x2)
        (k1_pay9 (k1_pay4 x0 x1) (k1_pay5 x2) (k1_pay6 x0 x1 x2) (k1_pay7 x0 x1) (k1_pay8 x2))
        (k1_pay10 (k1_pay4 x0 x1))))

/-- What one grid point adds to the carried `[1,1]` block: the sum over the whole `[512,4096]` block of
    (unweighted loss) · (picked weight), as a `[1,1]` block. -/
def lossBlockTerm (x0 : Vec F S512x4096 .f32) (x1 : Vec F S512x4096 .i32) (x2 : Vec F S1x128 .f32) : Vec F S1x1 .f32 :=
  broadcast S1x1
    (extractAt ![0, 0, 0]
      (shapeCast S1x1x1
        (multiReduction .add [1, 2] S1
          (shapeCast S1x512x4096 (mulf (bceV x0 x1) (weightV x0 x1 x2)) shapeCasts_S512x4096_S1x512x4096)
          0x00000000#32 reduces_S1x512x4096_S1 (.inl rfl) rfl)
        shapeCasts_S1_S1x1x1)
      inpos_S1x1x1_p0_0_0)

/-- The store's payload, with the payloads it is fed substituted, is the carried block plus the point's term. -/
theorem pay_eq (x0 : Vec F S512x4096 .f32) (x1 : Vec F S512x4096 .i32) (x2 : Vec F S1x128 .f32) (xo : Vec F S1x1 .f32) :
    k1_pay1 x0 (k1_pay3 x1)
      (k1_pay12 (k1_pay4 x0 x1) (k1_pay5 x2)
        (k1_pay11 (k1_pay4 x0 x1) (k1_pay5 x2)
          (k1_pay9 (k1_pay4 x0 x1) (k1_pay5 x2) (k1_pay6 x0 x1 x2) (k1_pay7 x0 x1) (k1_pay8 x2))
          (k1_pay10 (k1_pay4 x0 x1))))
      (k1_pay13 (k1_pay4 x0 x1)) (k1_pay14 (k1_pay5 x2)) xo = addf xo (lossBlockTerm x0 x1 x2) := by
  show addf (shapeCast S1x1 xo shapeCasts_S1x1_S1x1) (lossBlockTerm x0 x1 x2) = _
  rw [shapeCast_self]

/-- A later point (the reset not taken) leaves, in the output's staging buffer holding `xo3`, `xo3 +` the point's term:
    its one covering store's payload, whose loads read the whole buffers. -/
theorem out_B (c : Dev nD) (i : grid1.Coords) (a1 : Memref sig .tc .vmem S512x4096 .f32) (h1 : a1.IsWhole)
    (a2 : Memref sig .tc .vmem S512x4096 .i32) (h2 : a2.IsWhole) (a3 : Memref sig .tc .vmem S1x128 .f32) (h3 : a3.IsWhole)
    (a4 : Memref sig .tc .vmem S1x1 .f32) (h4 : a4.IsWhole) (hc : ¬cond1_0 i)
    (x0 : Vec F S512x4096 .f32) (x1 : Vec F S512x4096 .i32) (x2 : Vec F S1x128 .f32) (xo3 : Vec F S1x1 .f32) :
    out1_B_3 c i a1 h1 a2 h2 a3 h3 a4 h4 hc x0 x1 x2 xo3 = addf xo3 (lossBlockTerm x0 x1 x2) := by
  unfold out1_B_3
  rw [View.read_writes_eq_canon _ _ _ (cover1_B_3 c i a1 h1 a2 h2 a3 h3 a4 h4 hc x0 x1 x2 xo3)]
  unfold kernelRun1_B
  dsimp only
  sl_unfold_words
  rw [View.canon_unit_zero (S := S1x1) hz]
  simp only [View.readAt_eq_ld, h1.read_unread, h2.read_unread, h3.read_unread, h4.read_unread,
    View.ld_unit_zero (S := S512x4096) hz, View.ld_unit_zero (S := S1x128) hz, View.ld_unit_zero (S := S1x1) hz]
  exact pay_eq x0 x1 x2 xo3

/-- The first point (the reset taken) stores the zero block, reads it back, and leaves `0 +` the point's term. -/
theorem out_A (c : Dev nD) (i : grid1.Coords) (a1 : Memref sig .tc .vmem S512x4096 .f32) (h1 : a1.IsWhole)
    (a2 : Memref sig .tc .vmem S512x4096 .i32) (h2 : a2.IsWhole) (a3 : Memref sig .tc .vmem S1x128 .f32) (h3 : a3.IsWhole)
    (a4 : Memref sig .tc .vmem S1x1 .f32) (h4 : a4.IsWhole) (hc : cond1_0 i)
    (x0 : Vec F S512x4096 .f32) (x1 : Vec F S512x4096 .i32) (x2 : Vec F S1x128 .f32) :
    out1_A_3 c i a1 h1 a2 h2 a3 h3 a4 h4 hc x0 x1 x2 = addf zero (lossBlockTerm x0 x1 x2) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S512x4096) hz, View.ld_unit_zero (S := S1x128) hz, View.ld_unit_zero (S := S1x1) hz]
  exact pay_eq x0 x1 x2 zero

variable (V : (c : Dev nD) → (b : Ref sig .tc) → Buf (Elt F) ((c : Thread nD τ).loc b))

/-- The ordered running sum after point `n`: `0 +` the first block's term, then `+` the term of block `n` — the fold's
    closed form over the grid's sixteen points. -/
def lossChain (c : Dev nD) : (n : ℕ) → n < cfg1.N → Vec F S1x1 .f32
  | 0, h => addf zero (lossBlockTerm (iblk1 V c 0 ⟨0, h⟩) (iblk1 V c 1 ⟨0, h⟩) (iblk1 V c 2 ⟨0, h⟩))
  | n + 1, h => addf (lossChain c n (Nat.lt_of_succ_lt h))
      (lossBlockTerm (iblk1 V c 0 ⟨n + 1, h⟩) (iblk1 V c 1 ⟨n + 1, h⟩) (iblk1 V c 2 ⟨n + 1, h⟩))

/-- What the output's staging buffer holds after point `n` is the running sum: by induction on the point. -/
theorem outsAt_eq (c : Dev nD) : ∀ (n : ℕ) (h : n < cfg1.N), outsAt1 V c n h = lossChain V c n h
  | 0, h => (outsAt1_A V c ⟨0, h⟩ rfl).trans (out_A ..)
  | n + 1, h => by
    have hN : cfg1.N = 16 := N_1
    have hB : ¬(⟨n + 1, h⟩ : Fin cfg1.N).val % 16 = 0 := by dsimp only; omega
    rw [outsAt1_B V c ⟨n + 1, h⟩ hB, out_B]
    show addf (outsAt1 V c n _) _ = addf (lossChain V c n _) _
    rw [outsAt_eq c n]

/-- The running sum after the last point, as contents of the output array (its one block is the whole array). -/
abbrev result (c : Dev nD) : Buf (Elt F) ((c : Thread nD τ).loc main_v21) :=
  lossChain V c 15 (by rw [show cfg1.N = 16 from N_1]; decide)

/-- The one write-back, at point 15, writes it: block (0, 0) of the `[1,1]` array read through zero offsets is the array. -/
theorem flushed_eq (c : Dev nD) (t : Fin cfg1.N) (hf : (cfg1.win 3).flush t = true) :
    (dat1 V c).flushed 3 t = ((cfg1.win 3).blk t).view.read (Elt F) (result V c) := by
  have hN : cfg1.N = 16 := N_1
  have h15 : t.val = 15 := by have := (flush1_3 t).mp hf; have := t.isLt; omega
  obtain rfl : t = t1_15 := Fin.ext h15
  show (cfg1.win 3).cut (grid1.coords t1_15) ((dat1 V c).after 3 t1_15) = _
  rw [after1_3, outsAt_eq]
  have hz' : (fun a => win1_3.index t1_15 a * main_v21.ty.shape.size a) = fun _ => 0 := funext fun a => by fin_cases a <;> decide
  exact (Memref.read_access_unit_zero (Elt F) main_v21 hz' (fun a => by rw [congrFun hz' a]; simp) (result V c)).symm

/-- So the output array ends holding the running sum after point 15: that point's block covers the array. -/
theorem final_out (c : Dev nD) : (dat1 V c).arrAt 3 cfg1.N = lossChain V c 15 (by rw [show cfg1.N = 16 from N_1]; decide) :=
  (dat1 V c).arrAt_eq_of_cover 3 (result V c) (flushed_eq V c) fun i =>
    ⟨t1_15, (flush1_3 t1_15).mpr rfl, by
      show i ∈ ((View.whole main_v21).slice (win1_3.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_3.index t1_15 0 * win1_3.size 0 ≤ (i 0 : Nat) ∧ (i 0 : Nat) < win1_3.index t1_15 0 * win1_3.size 0 + win1_3.xsize (grid1.coords t1_15) 0
                  rw [show win1_3.index t1_15 0 * win1_3.size 0 = 0 from by decide +kernel, show win1_3.xsize (grid1.coords t1_15) 0 = 1 from by decide +kernel]; omega
      | ⟨1, _⟩ => show win1_3.index t1_15 1 * win1_3.size 1 ≤ (i 1 : Nat) ∧ (i 1 : Nat) < win1_3.index t1_15 1 * win1_3.size 1 + win1_3.xsize (grid1.coords t1_15) 1
                  rw [show win1_3.index t1_15 1 * win1_3.size 1 = 0 from by decide +kernel, show win1_3.xsize (grid1.coords t1_15) 1 = 1 from by decide +kernel]; omega⟩

end Cert.KernelIdeal.LossVal

end
-- ==== Proof.LossSum.lean ====
/-
  The loss region's per-point term at the extended reals: the sum over the block of each element's weighted loss.

  The kernel picks an element's weight by thirty selects on "the clipped bin equals `b`", each taking lane `b` of the
  `[1,128]` table; since the bin lies in `[0, 29]` the chain's value is the lane at the bin (`pick_eq`). Every other
  operation of the summed block is pointwise, so an element of it is the scalar `lossElt` of the specification
  (`prod_apply`), and the block's lane sum is the `Fintype` sum over the block (`lossBlockTerm_ideal`).
-/
import proofs.«124200_j9895604649991_1_alg».proof.Proof.LossPoint
import proofs.«124200_j9895604649991_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.ValueIdx
open scoped BigOperators

namespace Cert.KernelIdeal.LossVal

open Cert.KernelIdeal Cert.KernelIdeal.Gen

section AnyFloat
variable {F : FTy → Type} [FloatOps F]

/-- Lane `b` of the `[1,128]` weight table, `b < 30`. -/
def lane (x2 : Vec F S1x128 .f32) (b : Fin 30) : F .f32 := x2 (ix2 (0 : Fin 1) (⟨b.val, by omega⟩ : Fin 128))

/-- The `[1,1]` slice of the table at offset `(0, b)`, read at its one position, is lane `b`: the table's shape cast
    to its own shape is the table, and the slice shifts the column by `b`. -/
theorem lane_eq (x2 : Vec F S1x128 .f32) (b : Nat) (hb : b < 30) (h : S1x128.Slices ![0, b] S1x1)
    (h' : ∀ a, (![0, 0] : Fin 2 → Nat) a < S1x1.size a) :
    extractAt ![0, 0] (extractStridedSlice S1x1 ![0, b] (k1_pay5 x2) h) h' = lane x2 ⟨b, hb⟩ := by
  unfold k1_pay5 extractAt lane
  rw [shapeCast_self]
  refine extractStridedSlice_apply ![0, b] x2 h _ (ix2 (0 : Fin 1) (⟨b, by omega⟩ : Fin 128)) fun a => ?_
  match a with
  | ⟨0, _⟩ => rfl
  | ⟨1, _⟩ => rfl

/-- The thirty-step select chain on a bin word `k`: the entry of the last `b` with `k = b`, `z` when there is none. -/
def pick {α : Type} (k : BitVec 32) (tab : Fin 30 → α) (z : α) : α :=
  Scalar.select (IntOp.cmpi .eq k 29#32) (tab 29)
    (Scalar.select (IntOp.cmpi .eq k 28#32) (tab 28)
    (Scalar.select (IntOp.cmpi .eq k 27#32) (tab 27)
    (Scalar.select (IntOp.cmpi .eq k 26#32) (tab 26)
    (Scalar.select (IntOp.cmpi .eq k 25#32) (tab 25)
    (Scalar.select (IntOp.cmpi .eq k 24#32) (tab 24)
    (Scalar.select (IntOp.cmpi .eq k 23#32) (tab 23)
    (Scalar.select (IntOp.cmpi .eq k 22#32) (tab 22)
    (Scalar.select (IntOp.cmpi .eq k 21#32) (tab 21)
    (Scalar.select (IntOp.cmpi .eq k 20#32) (tab 20)
    (Scalar.select (IntOp.cmpi .eq k 19#32) (tab 19)
    (Scalar.select (IntOp.cmpi .eq k 18#32) (tab 18)
    (Scalar.select (IntOp.cmpi .eq k 17#32) (tab 17)
    (Scalar.select (IntOp.cmpi .eq k 16#32) (tab 16)
    (Scalar.select (IntOp.cmpi .eq k 15#32) (tab 15)
    (Scalar.select (IntOp.cmpi .eq k 14#32) (tab 14)
    (Scalar.select (IntOp.cmpi .eq k 13#32) (tab 13)
    (Scalar.select (IntOp.cmpi .eq k 12#32) (tab 12)
    (Scalar.select (IntOp.cmpi .eq k 11#32) (tab 11)
    (Scalar.select (IntOp.cmpi .eq k 10#32) (tab 10)
    (Scalar.select (IntOp.cmpi .eq k 9#32) (tab 9)
    (Scalar.select (IntOp.cmpi .eq k 8#32) (tab 8)
    (Scalar.select (IntOp.cmpi .eq k 7#32) (tab 7)
    (Scalar.select (IntOp.cmpi .eq k 6#32) (tab 6)
    (Scalar.select (IntOp.cmpi .eq k 5#32) (tab 5)
    (Scalar.select (IntOp.cmpi .eq k 4#32) (tab 4)
    (Scalar.select (IntOp.cmpi .eq k 3#32) (tab 3)
    (Scalar.select (IntOp.cmpi .eq k 2#32) (tab 2)
    (Scalar.select (IntOp.cmpi .eq k 1#32) (tab 1)
    (Scalar.select (IntOp.cmpi .eq k 0#32) (tab 0)
    (z))))))))))))))))))))))))))))))

/-- On the word of a lane below thirty the chain picks that lane's entry. -/
theorem pick_eq {α : Type} (n : Fin 30) (tab : Fin 30 → α) (z : α) : pick (BitVec.ofNat 32 n.val) tab z = tab n := by
  obtain ⟨n, hn⟩ := n
  interval_cases n <;> rfl

/-- The weight an element picks is the chain on its clipped bin over the table's first thirty lanes, over zero. -/
theorem weightV_apply (x0 : Vec F S512x4096 .f32) (x1 : Vec F S512x4096 .i32) (x2 : Vec F S1x128 .f32) (y : S512x4096.Idx) :
    weightV x0 x1 x2 y = pick (k1_pay4 x0 x1 y) (lane x2) (Scalar.ofBits .f32 0x00000000#32) := by
  unfold weightV k1_pay14 k1_pay13 k1_pay12 k1_pay11 k1_pay10 k1_pay9 k1_pay8 k1_pay7 k1_pay6
  dsimp only
  rw [lane_eq x2 0 (by decide),
    lane_eq x2 1 (by decide),
    lane_eq x2 2 (by decide),
    lane_eq x2 3 (by decide),
    lane_eq x2 4 (by decide),
    lane_eq x2 5 (by decide),
    lane_eq x2 6 (by decide),
    lane_eq x2 7 (by decide),
    lane_eq x2 8 (by decide),
    lane_eq x2 9 (by decide),
    lane_eq x2 10 (by decide),
    lane_eq x2 11 (by decide),
    lane_eq x2 12 (by decide),
    lane_eq x2 13 (by decide),
    lane_eq x2 14 (by decide),
    lane_eq x2 15 (by decide),
    lane_eq x2 16 (by decide),
    lane_eq x2 17 (by decide),
    lane_eq x2 18 (by decide),
    lane_eq x2 19 (by decide),
    lane_eq x2 20 (by decide),
    lane_eq x2 21 (by decide),
    lane_eq x2 22 (by decide),
    lane_eq x2 23 (by decide),
    lane_eq x2 24 (by decide),
    lane_eq x2 25 (by decide),
    lane_eq x2 26 (by decide),
    lane_eq x2 27 (by decide),
    lane_eq x2 28 (by decide),
    lane_eq x2 29 (by decide)]
  rfl

end AnyFloat

/-! ## At the extended reals: the point's term is the block's sum of the elements' weighted losses -/

/-- A block's unweighted loss at an element is the scalar one of that element: every operation is pointwise. -/
theorem bceV_apply (x0 : Vec Ideal S512x4096 .f32) (x1 : Vec Ideal S512x4096 .i32) (y : S512x4096.Idx) :
    bceV x0 x1 y = Cert.GhmSpec.bce (x0 y) (x1 y) := rfl

/-- The clipped bin of a block at an element is the scalar bin of that element. -/
theorem bin_apply (x0 : Vec Ideal S512x4096 .f32) (x1 : Vec Ideal S512x4096 .i32) (y : S512x4096.Idx) :
    k1_pay4 x0 x1 y = Cert.GhmSpec.bin (x0 y) (x1 y) := rfl

/-- One element of the summed block: its unweighted loss times the table's lane at its bin. The bin lies in
    `[0, 29]`, so it is the word of its lane and the select chain picks that lane. -/
theorem prod_apply (x0 : Vec Ideal S512x4096 .f32) (x1 : Vec Ideal S512x4096 .i32) (x2 : Vec Ideal S1x128 .f32)
    (y : S512x4096.Idx) :
    mulf (bceV x0 x1) (weightV x0 x1 x2) y = Cert.GhmSpec.lossElt (x0 y) (x1 y) (lane x2) := by
  show FloatOps.mulf (F := Ideal) (bceV x0 x1 y) (weightV x0 x1 x2 y) = _
  rw [weightV_apply, bceV_apply, bin_apply]
  have hb := Cert.GhmSpec.bin_bounds (x0 y) (x1 y)
  have hk := Cert.GhmSpec.eq_ofNat_binLane _ hb.1 hb.2
  unfold Cert.GhmSpec.lossElt
  refine congrArg (FloatOps.mulf (F := Ideal) (Cert.GhmSpec.bce (x0 y) (x1 y))) ?_
  exact (congrArg (fun k => pick k (lane x2) (Scalar.ofBits .f32 0x00000000#32)) hk).trans (pick_eq _ _ _)

/-- A shape cast read at an index is the operand at the matched index. -/
theorem shapeCast_at {s t : Shape} {α : Type} (x : s.Idx → α) (h : s.ShapeCasts t) (j : t.Idx) :
    shapeCast t x h j = x (Shape.reshapeEquiv h j) := rfl

/-- The point's term, at its one index: the sum over the block of the elements' weighted losses. The reduction
    into a one-element shape is the total sum over the `[1,512,4096]` view, which the shape cast's bijection
    re-indexes over the `[512,4096]` block. -/
theorem lossBlockTerm_ideal (x0 : Vec Ideal S512x4096 .f32) (x1 : Vec Ideal S512x4096 .i32) (x2 : Vec Ideal S1x128 .f32) :
    lossBlockTerm (F := Ideal) x0 x1 x2 (ix2 (0 : Fin 1) (0 : Fin 1))
      = ∑ y : S512x4096.Idx, Cert.GhmSpec.lossElt (x0 y) (x1 y) (lane x2) := by
  unfold lossBlockTerm
  rw [broadcast_apply]
  unfold extractAt
  rw [shapeCast_at]
  refine (Ideal.multiReduction_add_total (φ := .f32) _ _ _ (fun b => by fin_cases b; rfl) _ _ _).trans ?_
  exact Fintype.sum_equiv (Shape.reshapeEquiv shapeCasts_S512x4096_S1x512x4096) _ _ fun i => prod_apply x0 x1 x2 _
/-- The same with the table's lanes spelled out. -/
theorem lossBlockTerm_ideal' (x0 : Vec Ideal S512x4096 .f32) (x1 : Vec Ideal S512x4096 .i32) (x2 : Vec Ideal S1x128 .f32) :
    lossBlockTerm (F := Ideal) x0 x1 x2 (ix2 (0 : Fin 1) (0 : Fin 1))
      = ∑ y : S512x4096.Idx, Cert.GhmSpec.lossElt (x0 y) (x1 y)
          (fun b => x2 (ix2 (0 : Fin 1) (⟨b.val, by omega⟩ : Fin 128))) :=
  lossBlockTerm_ideal x0 x1 x2

end Cert.KernelIdeal.LossVal

end
-- ==== Proof.LossTotal.lean ====
import proofs.«124200_j9895604649991_1_alg».proof.Proof.LossPoint
import proofs.«124200_j9895604649991_1_alg».proof.Proof.BlockReads
import proofs.«124200_j9895604649991_1_alg».proof.Proof.Blocks
import proofs.«124200_j9895604649991_1_alg».proof.Proof.Spec
import Idealize.ShloMosaic.Lib.ValueIdx
import Idealize.ShloMosaic.PureOps.Ideal.Laws

/-!
  The second region's result, read at the extended reals.

  The carried [1,1] block after point `n` is zero plus the terms of row blocks `0 … n`. Where a block's term is the sum of
  its elements' weighted losses, the region's result is the sum of the weighted losses of all elements of the two
  argument arrays, against the weight table the region is entered with: the sixteen row blocks tile the arrays.
-/

noncomputable section

open Idealize.ShloMosaic Idealize.ShloMosaic.TcCoe Idealize.SL.Sem Idealize.ShloMosaic.ValueIdx

namespace Cert.KernelIdeal.LossVal

open Cert.KernelIdeal Cert.KernelIdeal.Gen

variable (V : (c : Dev nD) → (b : Ref sig .tc) → Buf (Elt Ideal) ((c : Thread nD τ).loc b))

/-- The term row block `k` adds to the carried block (zero past the grid). -/
def blkLoss (c : Dev nD) (k : ℕ) : Ideal .f32 :=
  if hk : k < cfg1.N then
    lossBlockTerm (F := Ideal) (iblk1 V c 0 ⟨k, hk⟩) (iblk1 V c 1 ⟨k, hk⟩) (iblk1 V c 2 ⟨k, hk⟩) (ix2 (0 : Fin 1) (0 : Fin 1))
  else 0

/-- The carried block after point `n`: zero plus the terms of blocks `0 … n`. -/
theorem chain_sum_loss (c : Dev nD) : ∀ (n : ℕ) (h : n < cfg1.N),
    lossChain (F := Ideal) V c n h (ix2 (0 : Fin 1) (0 : Fin 1)) = 0 + ∑ k ∈ Finset.range (n + 1), blkLoss V c k
  | 0, h => by
    have hz0 : (zero (F := Ideal)) (ix2 (0 : Fin 1) (0 : Fin 1)) = 0 := Ideal.ofBits_zero_f32
    rw [lossChain, addf_apply, hz0, Finset.sum_range_one, blkLoss, dif_pos h]
  | n + 1, h => by
    have e : blkLoss V c (n + 1)
        = lossBlockTerm (F := Ideal) (iblk1 V c 0 ⟨n + 1, h⟩) (iblk1 V c 1 ⟨n + 1, h⟩) (iblk1 V c 2 ⟨n + 1, h⟩)
            (ix2 (0 : Fin 1) (0 : Fin 1)) := by
      rw [blkLoss, dif_pos h]
    rw [lossChain, addf_apply, chain_sum_loss c n, Finset.sum_range_succ _ (n + 1), e, add_assoc]

/-- The region's result is the sum over all elements of the weighted losses, given that a block's term is the sum of
    its elements' weighted losses: each window's block is its row block of the array, the table window is the whole
    table, and the sixteen row blocks make up the array. -/
theorem result_total
    (hblk : ∀ (x0 : Vec Ideal S512x4096 .f32) (x1 : Vec Ideal S512x4096 .i32) (x2 : Vec Ideal S1x128 .f32),
      lossBlockTerm (F := Ideal) x0 x1 x2 (ix2 (0 : Fin 1) (0 : Fin 1))
        = ∑ y : S512x4096.Idx, Cert.GhmSpec.lossElt (x0 y) (x1 y)
            (fun b : Fin 30 => x2 (ix2 (0 : Fin 1) (⟨b.val, Nat.lt_of_lt_of_le b.isLt (by decide)⟩ : Fin 128))))
    (c : Dev nD) :
    result (F := Ideal) V c (ix2 (0 : Fin 1) (0 : Fin 1))
      = ∑ i : Cert.GhmSpec.Blocks.SAll.Idx, Cert.GhmSpec.lossElt (V c main_arg0 i) (V c main_arg1 i)
          (fun b : Fin 30 => V c main_v20 (ix2 (0 : Fin 1) (⟨b.val, Nat.lt_of_lt_of_le b.isLt (by decide)⟩ : Fin 128))) := by
  have hN : cfg1.N = 16 := N_1
  refine Eq.trans ?_ (Cert.GhmSpec.Blocks.sum_blocks fun i : Cert.GhmSpec.Blocks.SAll.Idx =>
    Cert.GhmSpec.lossElt (V c main_arg0 i) (V c main_arg1 i)
      (fun b : Fin 30 => V c main_v20 (ix2 (0 : Fin 1) (⟨b.val, Nat.lt_of_lt_of_le b.isLt (by decide)⟩ : Fin 128))))
  show lossChain (F := Ideal) V c 15 _ (ix2 (0 : Fin 1) (0 : Fin 1)) = _
  rw [chain_sum_loss, zero_add, show (15 + 1 : ℕ) = cfg1.N from hN.symm, Finset.sum_range]
  refine Fintype.sum_equiv (finCongr hN) _ _ fun k => ?_
  rw [blkLoss, dif_pos k.isLt, hblk]
  refine Finset.sum_congr rfl fun y _ => ?_
  rw [Reads.iblk1_x, Reads.iblk1_t, Reads.iblk1_tab]
  rfl

end Cert.KernelIdeal.LossVal

end
-- ==== Proof.KernelValue.lean ====
/-
  The kernel's result, at the extended reals.

  The second region finds the argument arrays as launched and, as its weight table, the host's table built from the
  first region's histogram: lane `b` holds bin `b`'s weight over the number of non-empty bins. Its result is the sum of
  all weighted element losses, and the last host operation divides by 2²⁵.
-/
import proofs.«124200_j9895604649991_1_alg».proof.Proof.KernelRun
import proofs.«124200_j9895604649991_1_alg».proof.Proof.KernelRunSpec
import proofs.«124200_j9895604649991_1_alg».proof.Proof.HistTotal
import proofs.«124200_j9895604649991_1_alg».proof.Proof.LossPoint
import proofs.«124200_j9895604649991_1_alg».proof.Proof.LossSum
import proofs.«124200_j9895604649991_1_alg».proof.Proof.LossTotal
import proofs.«124200_j9895604649991_1_alg».proof.Proof.Spec

noncomputable section

open Idealize.ShloMosaic Idealize.ShloMosaic.TcCoe Idealize.SL.Sem Idealize.ShloMosaic.ValueIdx

namespace Cert.KernelIdeal.KValue

open Cert.KernelIdeal Cert.KernelIdeal.Gen

variable (m : (ℓ : Loc nD τ sig) → Buf (Elt Ideal) ℓ) (ρ : Dev nD → PrngReg)

/-- The weight table the second region finds: lane `b` is bin `b`'s weight, from the histogram of the arguments. -/
theorem tab_lane (c : Dev nD) (b : Fin 30) :
    V4 m ρ c main_v20 (ix2 (0 : Fin 1) (⟨b.val, Nat.lt_of_lt_of_le b.isLt (by decide)⟩ : Fin 128))
      = Cert.GhmSpec.wTab (Cert.GhmSpec.hist (m ((c.tc : Thread nD τ).loc main_arg0)) (m ((c.tc : Thread nD τ).loc main_arg1))) b := by
  rw [Cert.KernelIdeal.KRun.V4_main_v20, Cert.KernelIdeal.HistVal.final_hist, Cert.KernelIdeal.KRun.wtabOf_lane,
    Cert.KernelIdeal.KRun.wtab30_eq_spec, Cert.KernelIdeal.HistVal.numInBin_result]

/-- The second region's result is the sum of all weighted element losses. -/
theorem loss_total (c : Dev nD) :
    Cert.KernelIdeal.LossVal.result (F := Ideal) (V4 m ρ) c (ix2 (0 : Fin 1) (0 : Fin 1))
      = Cert.GhmSpec.total (m ((c.tc : Thread nD τ).loc main_arg0)) (m ((c.tc : Thread nD τ).loc main_arg1)) := by
  have key : (∑ i : Cert.GhmSpec.Blocks.SAll.Idx, Cert.GhmSpec.lossElt (V4 m ρ c main_arg0 i) (V4 m ρ c main_arg1 i)
        (fun b : Fin 30 => V4 m ρ c main_v20 (ix2 (0 : Fin 1) (⟨b.val, Nat.lt_of_lt_of_le b.isLt (by decide)⟩ : Fin 128))) : EReal)
      = Cert.GhmSpec.total (m ((c.tc : Thread nD τ).loc main_arg0)) (m ((c.tc : Thread nD τ).loc main_arg1)) := by
    unfold Cert.GhmSpec.total
    refine Finset.sum_congr rfl fun i _ => ?_
    rw [Cert.KernelIdeal.KRun.V4_main_arg0, Cert.KernelIdeal.KRun.V4_main_arg1]
    exact congrArg (Cert.GhmSpec.lossElt _ _) (funext fun b => tab_lane m ρ c b)
  exact (Cert.KernelIdeal.LossVal.result_total (V4 m ρ)
    (fun x0 x1 x2 => Cert.KernelIdeal.LossVal.lossBlockTerm_ideal' x0 x1 x2) c).trans key

/-- The result buffer ends at the loss. -/
theorem kernel_value (c : Dev nD) :
    W6 m ρ c (Proc.devRef .tc main_v23)
      = fun _ => Cert.GhmSpec.result (m ((c.tc : Thread nD τ).loc main_arg0)) (m ((c.tc : Thread nD τ).loc main_arg1)) := by
  rw [Cert.KernelIdeal.KRun.W6_main_v23, Cert.KernelIdeal.LossVal.final_out]
  funext j
  have hj : Shape.reshapeEquiv shapeCasts_S1x1_S_ j = ix2 (0 : Fin 1) (0 : Fin 1) := by
    have h0 : ((Shape.reshapeEquiv shapeCasts_S1x1_S_ j) 0).val < 1 := idx2_lt0 (n0 := 1) (n1 := 1) _
    have h1 : ((Shape.reshapeEquiv shapeCasts_S1x1_S_ j) 1).val < 1 := idx2_lt1 (n0 := 1) (n1 := 1) _
    rw [eq_ix2 (Shape.reshapeEquiv shapeCasts_S1x1_S_ j)]
    congr 1
    · exact Fin.ext (Nat.lt_one_iff.mp h0)
    · exact Fin.ext (Nat.lt_one_iff.mp h1)
  show FloatOps.hostDivf (F := Ideal) (Cert.KernelIdeal.LossVal.result (F := Ideal) (V4 m ρ) c (Shape.reshapeEquiv shapeCasts_S1x1_S_ j))
      (FloatOps.ofBits (F := Ideal) .f32 0x4C000000#32) = _
  rw [hj, loss_total]
  rfl

end Cert.KernelIdeal.KValue

end
-- ==== Proof.RefRun.lean ====
import proofs.«124200_j9895604649991_1_alg».proof.ReferenceIdeal
import proofs.«124200_j9895604649991_1_alg».proof.Proof.Gen.ReferenceIdeal
import Idealize.ShloMosaic.Lib.StableHlo.Run

/-!
# The reference program's run, stage by stage

The reference computes, from logits `x` and integer targets `t` over the index `[8192, 4096]`,

* the target as a float, the logistic of `x`, and the bin `clip (⌊|σ(x) − t| · 30⌋, 0, 29)` of every element;
* the histogram `N` of the bins: a sum of ones scattered at the bin of each element, over `[30]`;
* the per-bin weight `binw N` and the count `nval N` of non-empty bins, both functions of `N` alone;
* the per-element weight `binw N` read at the element's bin, divided by `nval N`;
* the softplus of `x`, the weighted loss, its sum over all elements, and the quotient by `2 ^ 25`.

Each of these is a definition below, over any float instance `F`; `run` says every weakly fair execution of the
program ends with its result buffer holding `out x t` of the two arguments' launch contents, the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The targets as floats. -/
def tgt (t : IVec S8192x4096 32) : FVec F S8192x4096 .f32 := sitofp (F := F) .f32 t

/-- The logistic of the logits, spelt `1 / (1 + exp (−x))`. -/
def sgm (x : FVec F S8192x4096 .f32) : FVec F S8192x4096 .f32 :=
  Host.divf (broadcastInDim S8192x4096 ![] bcast_S_S8192x4096 (constant (F := F) S_ .f32 0x3F800000#32))
    (addf (broadcastInDim S8192x4096 ![] bcast_S_S8192x4096 (constant (F := F) S_ .f32 0x3F800000#32)) (Host.exp (Host.negf x)))

/-- The bin of every element: `|σ(x) − t| · 30` truncated to an integer, clipped below at `0` and above at `29`. -/
def inds (x : FVec F S8192x4096 .f32) (t : IVec S8192x4096 32) : IVec S8192x4096 32 :=
  minsi (broadcastInDim S8192x4096 ![] bcast_S_S8192x4096 (id (constantI S_ 32 29#32)))
    (maxsi (broadcastInDim S8192x4096 ![] bcast_S_S8192x4096 (id (constantI S_ 32 0#32)))
      (fptosi 32 (mulf (Host.absf (subf (sgm x) (tgt (F := F) t))) (broadcastInDim S8192x4096 ![] bcast_S_S8192x4096 (constant (F := F) S_ .f32 0x41F00000#32)))))

/-- The bins laid out along one axis of `8192 · 4096` entries. -/
def flatInds (x : FVec F S8192x4096 .f32) (t : IVec S8192x4096 32) : IVec S33554432 32 :=
  shapeCast S33554432 (inds x t) shapeCasts_S8192x4096_S33554432

/-- The scatter's index operand: a negative bin is moved up by `30`, and each entry becomes a row of one index. -/
def scatIdx (x : FVec F S8192x4096 .f32) (t : IVec S8192x4096 32) : IVec S33554432x1 32 :=
  broadcastInDim S33554432x1 ![0] bcast_S33554432_S33554432x1_0
    (select (cmpi .slt (flatInds x t) (broadcastInDim S33554432 ![] bcast_S_S33554432 (constantI S_ 32 0#32)))
      (addi (flatInds x t) (broadcastInDim S33554432 ![] bcast_S_S33554432 (constantI S_ 32 30#32)))
      (flatInds x t))

/-- The histogram of the bins: onto zeros over `[30]`, a one added at the bin of every element. -/
def hist (x : FVec F S8192x4096 .f32) (t : IVec S8192x4096 32) : FVec F S30 .f32 :=
  Host.scatterAdd scatter_S30_S33554432x1_S33554432_n_0_0_1
    (broadcastInDim S30 ![] bcast_S_S30 (constant (F := F) S_ .f32 0x00000000#32))
    (scatIdx x t)
    (broadcastInDim S33554432 ![] bcast_S_S33554432 (constant (F := F) S_ .f32 0x3F800000#32))

/-- Which bins are non-empty: `N b > 0`. -/
def occupied (N : FVec F S30 .f32) : IVec S30 1 :=
  cmpf (F := F) .ogt N (broadcastInDim S30 ![] bcast_S_S30 (constant (F := F) S_ .f32 0x00000000#32))

/-- The weight of a bin: `2 ^ 25 / max (N b / 2) 1e-12` where the bin is non-empty, `0` elsewhere. -/
def binw (N : FVec F S30 .f32) : FVec F S30 .f32 :=
  select (occupied N)
    (Host.divf (broadcastInDim S30 ![] bcast_S_S30 (constant (F := F) S_ .f32 0x4C000000#32))
      (maximumf (mulf (broadcastInDim S30 ![] bcast_S_S30 (constant (F := F) S_ .f32 0x3F000000#32)) N) (broadcastInDim S30 ![] bcast_S_S30 (constant (F := F) S_ .f32 0x2B8CBCCC#32))))
    (broadcastInDim S30 ![] bcast_S_S30 (id (constant (F := F) S_ .f32 0x00000000#32)))

/-- The number of non-empty bins, at least `1`. -/
def nval (N : FVec F S30 .f32) : FVec F S_ .f32 :=
  maximumf
    (Host.reduceAdd (uitofp (F := F) .f32 (occupied N)) (constant (F := F) S_ .f32 0x00000000#32) reducesTo_S30_S_d0 h_S_)
    (constant (F := F) S_ .f32 0x3F800000#32)

/-- The gather's index operand: the bins again, a negative one moved up by `30`, each a row of one index. -/
def gathIdx (x : FVec F S8192x4096 .f32) (t : IVec S8192x4096 32) : IVec S8192x4096x1 32 :=
  broadcastInDim S8192x4096x1 ![0, 1] bcast_S8192x4096_S8192x4096x1_0_1
    (select (cmpi .slt (inds x t) (broadcastInDim S8192x4096 ![] bcast_S_S8192x4096 (constantI S_ 32 0#32)))
      (addi (inds x t) (broadcastInDim S8192x4096 ![] bcast_S_S8192x4096 (constantI S_ 32 30#32)))
      (inds x t))

/-- The weight of every element: its bin's weight over the number of non-empty bins. -/
def wts (x : FVec F S8192x4096 .f32) (t : IVec S8192x4096 32) : FVec F S8192x4096 .f32 :=
  Host.divf (Host.gather gather_S30_S8192x4096x1_S8192x4096_n_0_n_n_0_2_1 (binw (hist x t)) (gathIdx x t))
    (broadcastInDim S8192x4096 ![] bcast_S_S8192x4096 (nval (hist x t)))

/-- Zeros over `[8192, 4096]`. -/
def zeros2 : FVec F S8192x4096 .f32 := broadcastInDim S8192x4096 ![] bcast_S_S8192x4096 (constant (F := F) S_ .f32 0x00000000#32)

/-- The softplus of the logits: `max x 0 + log1p (exp (−|x|))`, or `x` itself where `x − 0` is not a number. -/
def sp (x : FVec F S8192x4096 .f32) : FVec F S8192x4096 .f32 :=
  select (cmpf (F := F) .une (subf x zeros2) (subf x zeros2)) (addf x zeros2)
    (addf (maximumf x zeros2) (Host.log1p (Host.exp (Host.negf (Host.absf (subf x zeros2))))))

/-- The weighted loss of every element: `(softplus x − x · t) · w`. -/
def loss (x : FVec F S8192x4096 .f32) (t : IVec S8192x4096 32) : FVec F S8192x4096 .f32 :=
  mulf (subf (sp x) (mulf x (tgt (F := F) t))) (wts x t)

/-- The result: the sum of the weighted losses from `0`, over `2 ^ 25`. -/
def out (x : FVec F S8192x4096 .f32) (t : IVec S8192x4096 32) : FVec F S_ .f32 :=
  Host.divf (Host.reduceAdd (loss x t) (constant (F := F) S_ .f32 0x00000000#32) reducesTo_S8192x4096_S_d0_1 h_S_)
    (constant (F := F) S_ .f32 0x4C000000#32)

/-! ## The program as a list of operations -/

/-- The program's 90 operations in order, a called function's operations in the place of its call. -/
abbrev ops : List (HloOp τ sig (Elt F)) :=
  [ unary main_arg1 main_v0 (sitofp .f32 : (⟨S8192x4096, .i32⟩ : BufTy).Contents (Elt F) → (⟨S8192x4096, .f32⟩ : BufTy).Contents (Elt F)),
    unary main_arg0 main_v1 (Host.negf : (⟨S8192x4096, .f32⟩ : BufTy).Contents (Elt F) → (⟨S8192x4096, .f32⟩ : BufTy).Contents (Elt F)),
    unary main_v1 main_v2 (Host.exp : (⟨S8192x4096, .f32⟩ : BufTy).Contents (Elt F) → (⟨S8192x4096, .f32⟩ : BufTy).Contents (Elt F)),
    nullary main_cst (constant S_ .f32 0x3F800000#32),
    unary main_cst main_v3 (broadcastInDim S8192x4096 ![] bcast_S_S8192x4096 : (⟨S_, .f32⟩ : BufTy).Contents (Elt F) → (⟨S8192x4096, .f32⟩ : BufTy).Contents (Elt F)),
    binary main_v3 main_v2 main_v4 (addf : (⟨S8192x4096, .f32⟩ : BufTy).Contents (Elt F) → (⟨S8192x4096, .f32⟩ : BufTy).Contents (Elt F) → (⟨S8192x4096, .f32⟩ : BufTy).Contents (Elt F)),
    nullary main_cst_0 (constant S_ .f32 0x3F800000#32),
    unary main_cst_0 main_v5 (broadcastInDim S8192x4096 ![] bcast_S_S8192x4096 : (⟨S_, .f32⟩ : BufTy).Contents (Elt F) → (⟨S8192x4096, .f32⟩ : BufTy).Contents (Elt F)),
    binary main_v5 main_v4 main_v6 (Host.divf : (⟨S8192x4096, .f32⟩ : BufTy).Contents (Elt F) → (⟨S8192x4096, .f32⟩ : BufTy).Contents (Elt F) → (⟨S8192x4096, .f32⟩ : BufTy).Contents (Elt F)),
    binary main_v6 main_v0 main_v7 (subf : (⟨S8192x4096, .f32⟩ : BufTy).Contents (Elt F) → (⟨S8192x4096, .f32⟩ : BufTy).Contents (Elt F) → (⟨S8192x4096, .f32⟩ : BufTy).Contents (Elt F)),
    unary main_v7 main_v8 (Host.absf : (⟨S8192x4096, .f32⟩ : BufTy).Contents (Elt F) → (⟨S8192x4096, .f32⟩ : BufTy).Contents (Elt F)),
    nullary main_cst_1 (constant S_ .f32 0x41F00000#32),
    unary main_cst_1 main_v9 (broadcastInDim S8192x4096 ![] bcast_S_S8192x4096 : (⟨S_, .f32⟩ : BufTy).Contents (Elt F) → (⟨S8192x4096, .f32⟩ : BufTy).Contents (Elt F)),
    binary main_v8 main_v9 main_v10 (mulf : (⟨S8192x4096, .f32⟩ : BufTy).Contents (Elt F) → (⟨S8192x4096, .f32⟩ : BufTy).Contents (Elt F) → (⟨S8192x4096, .f32⟩ : BufTy).Contents (Elt F)),
    unary main_v10 main_v11 (fptosi 32 : (⟨S8192x4096, .f32⟩ : BufTy).Contents (Elt F) → (⟨S8192x4096, .i32⟩ : BufTy).Contents (Elt F)),
    nullary main_c (constantI S_ 32 0#32),
    nullary main_c_2 (constantI S_ 32 29#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8192x4096, .i32⟩) main_call0_v1) (broadcastInDim S8192x4096 ![] bcast_S_S8192x4096),
    TRef.binary (TRef.of (T := ⟨S8192x4096, .i32⟩) main_call0_v1) (TRef.of (T := ⟨S8192x4096, .i32⟩) main_v11) (TRef.of (T := ⟨S8192x4096, .i32⟩) main_call0_v2) maxsi,
    TRef.unary (TRef.of (T := ⟨S_, .i32⟩) main_c_2) (TRef.of (T := ⟨S_, .i32⟩) main_call0_v3) id,
    TRef.unary (TRef.of (T := ⟨S_, .i32⟩) main_call0_v3) (TRef.of (T := ⟨S8192x4096, .i32⟩) main_call0_v4) (broadcastInDim S8192x4096 ![] bcast_S_S8192x4096),
    TRef.binary (TRef.of (T := ⟨S8192x4096, .i32⟩) main_call0_v4) (TRef.of (T := ⟨S8192x4096, .i32⟩) main_call0_v2) (TRef.of (T := ⟨S8192x4096, .i32⟩) main_v12) minsi,
    nullary main_cst_3 (constant S_ .f32 0x00000000#32),
    unary main_cst_3 main_v13 (broadcastInDim S30 ![] bcast_S_S30 : (⟨S_, .f32⟩ : BufTy).Contents (Elt F) → (⟨S30, .f32⟩ : BufTy).Contents (Elt F)),
    reshape main_v12 main_v14 rfl shapeCasts_S8192x4096_S33554432,
    nullary main_c_4 (constantI S_ 32 0#32),
    unary main_c_4 main_v15 (broadcastInDim S33554432 ![] bcast_S_S33554432 : (⟨S_, .i32⟩ : BufTy).Contents (Elt F) → (⟨S33554432, .i32⟩ : BufTy).Contents (Elt F)),
    binary main_v14 main_v15 main_v16 (cmpi .slt : (⟨S33554432, .i32⟩ : BufTy).Contents (Elt F) → (⟨S33554432, .i32⟩ : BufTy).Contents (Elt F) → (⟨S33554432, .i1⟩ : BufTy).Contents (Elt F)),
    nullary main_c_5 (constantI S_ 32 30#32),
    unary main_c_5 main_v17 (broadcastInDim S33554432 ![] bcast_S_S33554432 : (⟨S_, .i32⟩ : BufTy).Contents (Elt F) → (⟨S33554432, .i32⟩ : BufTy).Contents (Elt F)),
    binary main_v14 main_v17 main_v18 (addi : (⟨S33554432, .i32⟩ : BufTy).Contents (Elt F) → (⟨S33554432, .i32⟩ : BufTy).Contents (Elt F) → (⟨S33554432, .i32⟩ : BufTy).Contents (Elt F)),
    ternary main_v16 main_v18 main_v14 main_v19 (select : (⟨S33554432, .i1⟩ : BufTy).Contents (Elt F) → (⟨S33554432, .i32⟩ : BufTy).Contents (Elt F) → (⟨S33554432, .i32⟩ : BufTy).Contents (Elt F) → (⟨S33554432, .i32⟩ : BufTy).Contents (Elt F)),
    unary main_v19 main_v20 (broadcastInDim S33554432x1 ![0] bcast_S33554432_S33554432x1_0 : (⟨S33554432, .i32⟩ : BufTy).Contents (Elt F) → (⟨S33554432x1, .i32⟩ : BufTy).Contents (Elt F)),
    nullary main_cst_6 (constant S_ .f32 0x3F800000#32),
    unary main_cst_6 main_v21 (broadcastInDim S33554432 ![] bcast_S_S33554432 : (⟨S_, .f32⟩ : BufTy).Contents (Elt F) → (⟨S33554432, .f32⟩ : BufTy).Contents (Elt F)),
    ternary main_v13 main_v20 main_v21 main_v22 ((fun x i u => Host.scatterAdd scatter_S30_S33554432x1_S33554432_n_0_0_1 x i u) : (⟨S30, .f32⟩ : BufTy).Contents (Elt F) → (⟨S33554432x1, .i32⟩ : BufTy).Contents (Elt F) → (⟨S33554432, .f32⟩ : BufTy).Contents (Elt F) → (⟨S30, .f32⟩ : BufTy).Contents (Elt F)),
    nullary main_cst_7 (constant S_ .f32 0x3F000000#32),
    unary main_cst_7 main_v23 (broadcastInDim S30 ![] bcast_S_S30 : (⟨S_, .f32⟩ : BufTy).Contents (Elt F) → (⟨S30, .f32⟩ : BufTy).Contents (Elt F)),
    binary main_v23 main_v22 main_v24 (mulf : (⟨S30, .f32⟩ : BufTy).Contents (Elt F) → (⟨S30, .f32⟩ : BufTy).Contents (Elt F) → (⟨S30, .f32⟩ : BufTy).Contents (Elt F)),
    nullary main_cst_8 (constant S_ .f32 0x00000000#32),
    unary main_cst_8 main_v25 (broadcastInDim S30 ![] bcast_S_S30 : (⟨S_, .f32⟩ : BufTy).Contents (Elt F) → (⟨S30, .f32⟩ : BufTy).Contents (Elt F)),
    binary main_v22 main_v25 main_v26 (cmpf .ogt : (⟨S30, .f32⟩ : BufTy).Contents (Elt F) → (⟨S30, .f32⟩ : BufTy).Contents (Elt F) → (⟨S30, .i1⟩ : BufTy).Contents (Elt F)),
    unary main_v26 main_v27 (uitofp .f32 : (⟨S30, .i1⟩ : BufTy).Contents (Elt F) → (⟨S30, .f32⟩ : BufTy).Contents (Elt F)),
    nullary main_cst_9 (constant S_ .f32 0x00000000#32),
    binary main_v27 main_cst_9 main_v28 ((fun x v => Host.reduceAdd x v reducesTo_S30_S_d0 h_S_) : (⟨S30, .f32⟩ : BufTy).Contents (Elt F) → (⟨S_, .f32⟩ : BufTy).Contents (Elt F) → (⟨S_, .f32⟩ : BufTy).Contents (Elt F)),
    nullary main_cst_10 (constant S_ .f32 0x3F800000#32),
    binary main_v28 main_cst_10 main_v29 (maximumf : (⟨S_, .f32⟩ : BufTy).Contents (Elt F) → (⟨S_, .f32⟩ : BufTy).Contents (Elt F) → (⟨S_, .f32⟩ : BufTy).Contents (Elt F)),
    nullary main_cst_11 (constant S_ .f32 0x2B8CBCCC#32),
    unary main_cst_11 main_v30 (broadcastInDim S30 ![] bcast_S_S30 : (⟨S_, .f32⟩ : BufTy).Contents (Elt F) → (⟨S30, .f32⟩ : BufTy).Contents (Elt F)),
    binary main_v24 main_v30 main_v31 (maximumf : (⟨S30, .f32⟩ : BufTy).Contents (Elt F) → (⟨S30, .f32⟩ : BufTy).Contents (Elt F) → (⟨S30, .f32⟩ : BufTy).Contents (Elt F)),
    nullary main_cst_12 (constant S_ .f32 0x4C000000#32),
    unary main_cst_12 main_v32 (broadcastInDim S30 ![] bcast_S_S30 : (⟨S_, .f32⟩ : BufTy).Contents (Elt F) → (⟨S30, .f32⟩ : BufTy).Contents (Elt F)),
    binary main_v32 main_v31 main_v33 (Host.divf : (⟨S30, .f32⟩ : BufTy).Contents (Elt F) → (⟨S30, .f32⟩ : BufTy).Contents (Elt F) → (⟨S30, .f32⟩ : BufTy).Contents (Elt F)),
    nullary main_cst_13 (constant S_ .f32 0x00000000#32),
    TRef.unary (TRef.of (T := ⟨S_, .f32⟩) main_cst_13) (TRef.of (T := ⟨S_, .f32⟩) main_call1_v0) id,
    TRef.unary (TRef.of (T := ⟨S_, .f32⟩) main_call1_v0) (TRef.of (T := ⟨S30, .f32⟩) main_call1_v1) (broadcastInDim S30 ![] bcast_S_S30),
    TRef.ternary (TRef.of (T := ⟨S30, .i1⟩) main_v26) (TRef.of (T := ⟨S30, .f32⟩) main_v33) (TRef.of (T := ⟨S30, .f32⟩) main_call1_v1) (TRef.of (T := ⟨S30, .f32⟩) main_v34) select,
    nullary main_c_14 (constantI S_ 32 0#32),
    unary main_c_14 main_v35 (broadcastInDim S8192x4096 ![] bcast_S_S8192x4096 : (⟨S_, .i32⟩ : BufTy).Contents (Elt F) → (⟨S8192x4096, .i32⟩ : BufTy).Contents (Elt F)),
    binary main_v12 main_v35 main_v36 (cmpi .slt : (⟨S8192x4096, .i32⟩ : BufTy).Contents (Elt F) → (⟨S8192x4096, .i32⟩ : BufTy).Contents (Elt F) → (⟨S8192x4096, .i1⟩ : BufTy).Contents (Elt F)),
    nullary main_c_15 (constantI S_ 32 30#32),
    unary main_c_15 main_v37 (broadcastInDim S8192x4096 ![] bcast_S_S8192x4096 : (⟨S_, .i32⟩ : BufTy).Contents (Elt F) → (⟨S8192x4096, .i32⟩ : BufTy).Contents (Elt F)),
    binary main_v12 main_v37 main_v38 (addi : (⟨S8192x4096, .i32⟩ : BufTy).Contents (Elt F) → (⟨S8192x4096, .i32⟩ : BufTy).Contents (Elt F) → (⟨S8192x4096, .i32⟩ : BufTy).Contents (Elt F)),
    ternary main_v36 main_v38 main_v12 main_v39 (select : (⟨S8192x4096, .i1⟩ : BufTy).Contents (Elt F) → (⟨S8192x4096, .i32⟩ : BufTy).Contents (Elt F) → (⟨S8192x4096, .i32⟩ : BufTy).Contents (Elt F) → (⟨S8192x4096, .i32⟩ : BufTy).Contents (Elt F)),
    unary main_v39 main_v40 (broadcastInDim S8192x4096x1 ![0, 1] bcast_S8192x4096_S8192x4096x1_0_1 : (⟨S8192x4096, .i32⟩ : BufTy).Contents (Elt F) → (⟨S8192x4096x1, .i32⟩ : BufTy).Contents (Elt F)),
    binary main_v34 main_v40 main_v41 ((fun x i => Host.gather gather_S30_S8192x4096x1_S8192x4096_n_0_n_n_0_2_1 x i) : (⟨S30, .f32⟩ : BufTy).Contents (Elt F) → (⟨S8192x4096x1, .i32⟩ : BufTy).Contents (Elt F) → (⟨S8192x4096, .f32⟩ : BufTy).Contents (Elt F)),
    unary main_v29 main_v42 (broadcastInDim S8192x4096 ![] bcast_S_S8192x4096 : (⟨S_, .f32⟩ : BufTy).Contents (Elt F) → (⟨S8192x4096, .f32⟩ : BufTy).Contents (Elt F)),
    binary main_v41 main_v42 main_v43 (Host.divf : (⟨S8192x4096, .f32⟩ : BufTy).Contents (Elt F) → (⟨S8192x4096, .f32⟩ : BufTy).Contents (Elt F) → (⟨S8192x4096, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S8192x4096, .f32⟩) main_call2_v0) (broadcastInDim S8192x4096 ![] bcast_S_S8192x4096),
    TRef.binary (TRef.of (T := ⟨S8192x4096, .f32⟩) main_arg0) (TRef.of (T := ⟨S8192x4096, .f32⟩) main_call2_v0) (TRef.of (T := ⟨S8192x4096, .f32⟩) main_call2_v1) maximumf,
    TRef.unary (TRef.of (T := ⟨S_, .f32⟩) main_call2_cst) (TRef.of (T := ⟨S8192x4096, .f32⟩) main_call2_v2) (broadcastInDim S8192x4096 ![] bcast_S_S8192x4096),
    TRef.binary (TRef.of (T := ⟨S8192x4096, .f32⟩) main_arg0) (TRef.of (T := ⟨S8192x4096, .f32⟩) main_call2_v2) (TRef.of (T := ⟨S8192x4096, .f32⟩) main_call2_v3) subf,
    TRef.binary (TRef.of (T := ⟨S8192x4096, .f32⟩) main_call2_v3) (TRef.of (T := ⟨S8192x4096, .f32⟩) main_call2_v3) (TRef.of (T := ⟨S8192x4096, .i1⟩) main_call2_v4) (cmpf .une),
    TRef.unary (TRef.of (T := ⟨S_, .f32⟩) main_call2_cst) (TRef.of (T := ⟨S8192x4096, .f32⟩) main_call2_v5) (broadcastInDim S8192x4096 ![] bcast_S_S8192x4096),
    TRef.binary (TRef.of (T := ⟨S8192x4096, .f32⟩) main_arg0) (TRef.of (T := ⟨S8192x4096, .f32⟩) main_call2_v5) (TRef.of (T := ⟨S8192x4096, .f32⟩) main_call2_v6) addf,
    TRef.unary (TRef.of (T := ⟨S8192x4096, .f32⟩) main_call2_v3) (TRef.of (T := ⟨S8192x4096, .f32⟩) main_call2_v7) Host.absf,
    TRef.unary (TRef.of (T := ⟨S8192x4096, .f32⟩) main_call2_v7) (TRef.of (T := ⟨S8192x4096, .f32⟩) main_call2_v8) Host.negf,
    TRef.unary (TRef.of (T := ⟨S8192x4096, .f32⟩) main_call2_v8) (TRef.of (T := ⟨S8192x4096, .f32⟩) main_call2_v9) Host.exp,
    TRef.unary (TRef.of (T := ⟨S8192x4096, .f32⟩) main_call2_v9) (TRef.of (T := ⟨S8192x4096, .f32⟩) main_call2_v10) Host.log1p,
    TRef.binary (TRef.of (T := ⟨S8192x4096, .f32⟩) main_call2_v1) (TRef.of (T := ⟨S8192x4096, .f32⟩) main_call2_v10) (TRef.of (T := ⟨S8192x4096, .f32⟩) main_call2_v11) addf,
    TRef.ternary (TRef.of (T := ⟨S8192x4096, .i1⟩) main_call2_v4) (TRef.of (T := ⟨S8192x4096, .f32⟩) main_call2_v6) (TRef.of (T := ⟨S8192x4096, .f32⟩) main_call2_v11) (TRef.of (T := ⟨S8192x4096, .f32⟩) main_v44) select,
    binary main_arg0 main_v0 main_v45 (mulf : (⟨S8192x4096, .f32⟩ : BufTy).Contents (Elt F) → (⟨S8192x4096, .f32⟩ : BufTy).Contents (Elt F) → (⟨S8192x4096, .f32⟩ : BufTy).Contents (Elt F)),
    binary main_v44 main_v45 main_v46 (subf : (⟨S8192x4096, .f32⟩ : BufTy).Contents (Elt F) → (⟨S8192x4096, .f32⟩ : BufTy).Contents (Elt F) → (⟨S8192x4096, .f32⟩ : BufTy).Contents (Elt F)),
    binary main_v46 main_v43 main_v47 (mulf : (⟨S8192x4096, .f32⟩ : BufTy).Contents (Elt F) → (⟨S8192x4096, .f32⟩ : BufTy).Contents (Elt F) → (⟨S8192x4096, .f32⟩ : BufTy).Contents (Elt F)),
    nullary main_cst_16 (constant S_ .f32 0x00000000#32),
    binary main_v47 main_cst_16 main_v48 ((fun x v => Host.reduceAdd x v reducesTo_S8192x4096_S_d0_1 h_S_) : (⟨S8192x4096, .f32⟩ : BufTy).Contents (Elt F) → (⟨S_, .f32⟩ : BufTy).Contents (Elt F) → (⟨S_, .f32⟩ : BufTy).Contents (Elt F)),
    nullary main_cst_17 (constant S_ .f32 0x4C000000#32),
    binary main_v48 main_cst_17 main_v49 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., nullary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., binary_bufs_sub .., binary_bufs_sub .., binary_bufs_sub .., nullary_bufs_sub .., binary_bufs_sub .., nullary_bufs_sub .., binary_bufs_sub ..⟩

/-! ## The run -/

set_option maxRecDepth 8192 in
set_option maxHeartbeats 36000000 in
/-- On every device, for any float values, from any memory with zero counters: every weakly fair execution of the
    program terminates with its result at `out` of the two arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = out (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v49).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefRun

end
-- ==== Proof.RefReduce.lean ====
import proofs.«124200_j9895604649991_1_alg».proof.ReferenceIdeal
import proofs.«124200_j9895604649991_1_alg».proof.Proof.Gen.ReferenceIdeal
import Idealize.ShloMosaic.PureOps.Ideal.Laws
import Idealize.ShloMosaic.Lib.ValueIdx

/-!
  The reference's last step, read at the extended reals: a sum over both axes started from zero, then a division by
  2^25, is the total of the array over 2^25.
-/

noncomputable section

open Idealize.ShloMosaic Idealize.ShloMosaic.ValueIdx

namespace Cert.ReferenceIdeal.RefReduceVal

open Cert.ReferenceIdeal Cert.ReferenceIdeal.Facts₀

/-- Reducing every axis with `add` from the initial value `+0.0` gives `0 + ∑ L`, and zero is the unit. -/
theorem reduce_all (L : FVec Ideal S8192x4096 .f32) :
    Host.divf (F := Ideal)
        (Host.reduceAdd (F := Ideal) L (constant (F := Ideal) S_ .f32 0x00000000#32) reducesTo_S8192x4096_S_d0_1 h_S_)
        (constant (F := Ideal) S_ .f32 0x4C000000#32)
      = fun _ => FloatOps.hostDivf (F := Ideal) (∑ i : S8192x4096.Idx, L i) (FloatOps.ofBits (F := Ideal) .f32 0x4C000000#32) := by
  funext j
  have e : Host.reduceAdd (F := Ideal) L (constant (F := Ideal) S_ .f32 0x00000000#32) reducesTo_S8192x4096_S_d0_1 h_S_ j
      = ∑ i : S8192x4096.Idx, L i := by
    refine (Ideal.hostReduceAdd_total reducesTo_S8192x4096_S_d0_1 (fun b => b.elim0) L _ j).trans ?_
    rw [show (constant (F := Ideal) S_ .f32 0x00000000#32) (Shape.Idx.first h_S_) = (0 : EReal) from Ideal.ofBits_zero_f32, zero_add]
  exact congrArg (fun a => FloatOps.hostDivf (F := Ideal) a (FloatOps.ofBits (F := Ideal) .f32 0x4C000000#32)) e

end Cert.ReferenceIdeal.RefReduceVal

end
-- ==== Proof.RefValue.lean ====
import proofs.«124200_j9895604649991_1_alg».proof.Proof.RefRun
import proofs.«124200_j9895604649991_1_alg».proof.Proof.Spec
import proofs.«124200_j9895604649991_1_alg».proof.Proof.RefReduce
import Idealize.ShloMosaic.PureOps.Ideal.Laws
import Idealize.ShloMosaic.Lib.ValueIdx

/-!
# The reference's result over the extended reals

Read at the extended reals, each stage of the reference is the specification's:

* `1 / (1 + exp (−x))` is the logistic function, so the bin array holds every element's bin;
* the two spellings of the softplus agree (`≠` is one comparison whether or not it is ordered, and `0 − a = −a`), so the
  unweighted loss is the specification's;
* a bin lies in `[0, 29]`, so the gather's index is never moved up and its clamp is the specification's lane; the bin
  weight and the count of non-empty bins are the specification's operation for operation, so an element's weight is the
  weight table at its bin;
* the result is the whole sum of the weighted losses over `2 ^ 25`.

The one thing taken as a hypothesis here is that the scattered histogram is the specification's count.
-/

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## Literals and single elements -/

/-- The pattern of `1.0` denotes `1`. -/
theorem ofBits_one : Ideal.ofBits .f32 0x3F800000#32 = 1 := by
  simp [Ideal.ofBits, Ideal.ieee, -EReal.coe_mul]; norm_num

/-- `1 / (1 + exp (−x))` is the logistic function. -/
theorem sgm_apply (x : FVec Ideal S8192x4096 .f32) (i : S8192x4096.Idx) :
    sgm (F := Ideal) x i = FloatOps.logistic (F := Ideal) (x i) := by
  show Ideal.div (Ideal.ofBits .f32 0x3F800000#32) (Ideal.ofBits .f32 0x3F800000#32 + Ideal.exp (-(x i)))
      = Ideal.div 1 (1 + Ideal.exp (-(x i)))
  rw [ofBits_one]

/-- The bin array at an index is the bin of that element. -/
theorem inds_apply (x : FVec Ideal S8192x4096 .f32) (t : IVec S8192x4096 32) (i : S8192x4096.Idx) :
    inds (F := Ideal) x t i = Cert.GhmSpec.bin (x i) (t i) := by
  show IntOp.minsi 29#32 (IntOp.maxsi 0#32 (FloatOps.fptosi (F := Ideal) 32
      (FloatOps.mulf (F := Ideal) (FloatOps.absf (F := Ideal) (FloatOps.subf (F := Ideal) (sgm (F := Ideal) x i)
        (FloatOps.sitofp (F := Ideal) .f32 (t i)))) (FloatOps.ofBits (F := Ideal) .f32 0x41F00000#32)))) = _
  rw [sgm_apply]
  rfl

/-- The unweighted loss at an index: the two spellings of the softplus agree, since `≠` is one comparison whether or not
    it is ordered, and `0 − a = −a`. -/
theorem bce_apply (x : FVec Ideal S8192x4096 .f32) (t : IVec S8192x4096 32) (i : S8192x4096.Idx) :
    subf (sp (F := Ideal) x) (mulf x (tgt (F := Ideal) t)) i = Cert.GhmSpec.bce (x i) (t i) := by
  show (Scalar.select (Ideal.cmp .une (x i - Ideal.ofBits .f32 0x00000000#32) (x i - Ideal.ofBits .f32 0x00000000#32))
        (x i + Ideal.ofBits .f32 0x00000000#32)
        (max (x i) (Ideal.ofBits .f32 0x00000000#32)
          + Ideal.log1p (Ideal.exp (-(max (x i - Ideal.ofBits .f32 0x00000000#32) (-(x i - Ideal.ofBits .f32 0x00000000#32)))))))
      - x i * ((((t i).toInt : ℝ) : EReal))
    = (Scalar.select (Ideal.cmp .one (x i - Ideal.ofBits .f32 0x00000000#32) (x i - Ideal.ofBits .f32 0x00000000#32))
        (x i + Ideal.ofBits .f32 0x00000000#32)
        (max (x i) (Ideal.ofBits .f32 0x00000000#32)
          + Ideal.log1p (Ideal.exp (Ideal.ofBits .f32 0x00000000#32 - (max (x i - Ideal.ofBits .f32 0x00000000#32) (-(x i - Ideal.ofBits .f32 0x00000000#32)))))))
      - x i * ((((t i).toInt : ℝ) : EReal))
  rw [Ideal.ofBits_zero_f32, zero_sub]
  rfl

/-- A word that is not negative is not below zero. -/
theorem slt_zero_of_nonneg (k : BitVec 32) (h : 0 ≤ k.toInt) : IntOp.cmpi .slt k 0#32 = 0#1 := by
  have h0 : (0#32 : BitVec 32).toInt = 0 := by decide
  have hs : k.slt 0#32 = false := by
    simp only [BitVec.slt, h0, decide_eq_false_iff_not, not_lt]; exact h
  show BitVec.ofBool (k.slt 0#32) = 0#1
  rw [hs]; rfl

/-! ## The weights -/

/-- An entry of the unit-depth broadcast reads the element it was made from. -/
theorem bcast_unit3 {α : Type} (v : S8192x4096.Idx → α) (i : S8192x4096.Idx) :
    broadcastInDim S8192x4096x1 ![0, 1] bcast_S8192x4096_S8192x4096x1_0_1 v (takeIdx (R := 8192) (C := 4096) i) = v i := by
  unfold broadcastInDim
  congr 1
  funext a
  fin_cases a
  · refine Fin.ext ?_
    rw [dif_neg (by decide)]
    rfl
  · refine Fin.ext ?_
    rw [dif_neg (by decide)]
    rfl

/-- The gather's index for an element is that element's bin: a bin is never negative, so it is not moved up. -/
theorem gathIdx_apply (x : FVec Ideal S8192x4096 .f32) (t : IVec S8192x4096 32) (i : S8192x4096.Idx) :
    gathIdx (F := Ideal) x t (takeIdx (R := 8192) (C := 4096) i) = Cert.GhmSpec.bin (x i) (t i) := by
  unfold gathIdx
  rw [bcast_unit3]
  show Scalar.select (IntOp.cmpi .slt (inds (F := Ideal) x t i) 0#32)
      (IntOp.addi (inds (F := Ideal) x t i) 30#32) (inds (F := Ideal) x t i) = _
  rw [inds_apply, slt_zero_of_nonneg _ (Cert.GhmSpec.bin_bounds _ _).1, select_zero]

/-- The gather reads the table at the index, taken signed and clamped into `[0, 29]`. -/
theorem gather_apply (w : S30.Idx → Ideal .f32) (idx : IVec S8192x4096x1 32) (i : S8192x4096.Idx) :
    Host.gather gather_S30_S8192x4096x1_S8192x4096_n_0_n_n_0_2_1 w idx i
      = w (ix1 ⟨min (idx (takeIdx (R := 8192) (C := 4096) i)).toInt.toNat 29, by omega⟩) :=
  gather_take_apply (N := 30) (R := 8192) (C := 4096) (by decide)
    gather_S30_S8192x4096x1_S8192x4096_n_0_n_n_0_2_1_wf w idx i

/-- Over any histogram, the bin weight read at a clamped word and divided by the count of non-empty bins is the
    specification's weight table at that word's lane: the two are the same operations. -/
theorem wtab_read (N : FVec Ideal S30 .f32) (k : BitVec 32) :
    FloatOps.hostDivf (F := Ideal) (binw (F := Ideal) N (ix1 ⟨min k.toInt.toNat 29, by omega⟩)) (nval (F := Ideal) N ix0)
      = Cert.GhmSpec.wTab N (Cert.GhmSpec.binLane k) := rfl

/-- An element's weight is the weight table, over the given histogram, at the element's bin. -/
theorem wts_apply (x : FVec Ideal S8192x4096 .f32) (t : IVec S8192x4096 32)
    (hh : hist (F := Ideal) x t = Cert.GhmSpec.hist x t) (i : S8192x4096.Idx) :
    wts (F := Ideal) x t i
      = Cert.GhmSpec.wTab (Cert.GhmSpec.hist x t) (Cert.GhmSpec.binLane (Cert.GhmSpec.bin (x i) (t i))) := by
  have h1 : wts (F := Ideal) x t i = FloatOps.hostDivf (F := Ideal)
      (Host.gather gather_S30_S8192x4096x1_S8192x4096_n_0_n_n_0_2_1 (binw (F := Ideal) (hist (F := Ideal) x t))
        (gathIdx (F := Ideal) x t) i)
      (nval (F := Ideal) (hist (F := Ideal) x t) ix0) := by
    refine congrArg (FloatOps.hostDivf (F := Ideal) _) ?_
    exact congrArg (nval (F := Ideal) (hist (F := Ideal) x t)) (eq_ix0 _)
  have h2 := gather_apply (binw (F := Ideal) (hist (F := Ideal) x t)) (gathIdx (F := Ideal) x t) i
  have h3 := wtab_read (hist (F := Ideal) x t) (gathIdx (F := Ideal) x t (takeIdx (R := 8192) (C := 4096) i))
  exact (h1.trans ((congrArg (fun g => FloatOps.hostDivf (F := Ideal) g (nval (F := Ideal) (hist (F := Ideal) x t) ix0)) h2).trans h3)).trans
    (congrArg₂ (fun N k => Cert.GhmSpec.wTab N (Cert.GhmSpec.binLane k)) hh (gathIdx_apply x t i))

/-! ## The loss and its sum -/

/-- An element's weighted loss is the specification's. -/
theorem loss_apply (x : FVec Ideal S8192x4096 .f32) (t : IVec S8192x4096 32)
    (hh : hist (F := Ideal) x t = Cert.GhmSpec.hist x t) (i : S8192x4096.Idx) :
    loss (F := Ideal) x t i = Cert.GhmSpec.lossElt (x i) (t i) (Cert.GhmSpec.wTab (Cert.GhmSpec.hist x t)) := by
  have h1 : loss (F := Ideal) x t i
      = FloatOps.mulf (F := Ideal) (subf (sp (F := Ideal) x) (mulf x (tgt (F := Ideal) t)) i) (wts (F := Ideal) x t i) := rfl
  rw [h1, bce_apply, wts_apply x t hh]
  rfl

/-- The reference's result is the specification's, given that its histogram is: the whole sum of the weighted losses
    over `2 ^ 25`, term by term. -/
theorem out_eq_of_hist (x : FVec Ideal S8192x4096 .f32) (t : IVec S8192x4096 32)
    (hh : hist (F := Ideal) x t = Cert.GhmSpec.hist x t) :
    out (F := Ideal) x t = fun _ => Cert.GhmSpec.result x t := by
  refine (Cert.ReferenceIdeal.RefReduceVal.reduce_all (loss (F := Ideal) x t)).trans ?_
  funext _
  unfold Cert.GhmSpec.result Cert.GhmSpec.total
  refine congrArg (fun s => FloatOps.hostDivf (F := Ideal) s (FloatOps.ofBits (F := Ideal) .f32 0x4C000000#32)) ?_
  exact Fintype.sum_congr _ _ (fun i => loss_apply x t hh i)

end Cert.ReferenceIdeal.RefValue

end
-- ==== Proof.RefHist.lean ====
/-
  The reference's histogram is the specification's.

  The reference adds a one, onto zeros over thirty bins, at the bin of every element: a scatter over the flattened
  `[33554432]` array of bins. At the extended reals the scatter is, at bin `b`, the operand there plus the sum of the
  updates whose landing index is `b`. An update's landing index is the signed value of its index row; that row is the
  element's bin (never negative, so the wrap by thirty is dead); and a bin in `[0, 29]` has signed value `b` exactly when
  it is the word of `b`. So lane `b` is the number of elements whose bin is `b`, re-indexed from the flat axis to the
  `[8192, 4096]` index by the reshape's bijection.
-/
import proofs.«124200_j9895604649991_1_alg».proof.Proof.RefRun
import proofs.«124200_j9895604649991_1_alg».proof.Proof.Spec
import Idealize.ShloMosaic.PureOps.Ideal.Laws
import Idealize.ShloMosaic.Lib.ValueIdx

noncomputable section

namespace Cert.ReferenceIdeal.RefHistVal

open Cert.ReferenceIdeal Cert.ReferenceIdeal.Gen Cert.ReferenceIdeal.RefRun Idealize.ShloMosaic Idealize.ShloMosaic.ValueIdx
open scoped BigOperators

/-! ## Literals and single elements -/

/-- The pattern of `1.0` denotes `1`. -/
theorem ofBits_one : Ideal.ofBits .f32 0x3F800000#32 = 1 := by
  simp [Ideal.ofBits, Ideal.ieee, -EReal.coe_mul]; norm_num

/-- `1 / (1 + exp (−x))` is the logistic function. -/
theorem sgm_apply (x : FVec Ideal S8192x4096 .f32) (i : S8192x4096.Idx) :
    sgm (F := Ideal) x i = FloatOps.logistic (F := Ideal) (x i) := by
  show Ideal.div (Ideal.ofBits .f32 0x3F800000#32) (Ideal.ofBits .f32 0x3F800000#32 + Ideal.exp (-(x i)))
      = Ideal.div 1 (1 + Ideal.exp (-(x i)))
  rw [ofBits_one]

/-- The bin array at an index is the bin of that element. -/
theorem inds_apply (x : FVec Ideal S8192x4096 .f32) (t : IVec S8192x4096 32) (i : S8192x4096.Idx) :
    inds (F := Ideal) x t i = Cert.GhmSpec.bin (x i) (t i) := by
  show IntOp.minsi 29#32 (IntOp.maxsi 0#32 (FloatOps.fptosi (F := Ideal) 32
      (FloatOps.mulf (F := Ideal) (FloatOps.absf (F := Ideal) (FloatOps.subf (F := Ideal) (sgm (F := Ideal) x i)
        (FloatOps.sitofp (F := Ideal) .f32 (t i)))) (FloatOps.ofBits (F := Ideal) .f32 0x41F00000#32)))) = _
  rw [sgm_apply]
  rfl

/-! ## Where the scatter puts an update -/

/-- The scatter's dimension numbers: one index per update, naming the operand's only axis. -/
abbrev dS : ScatterDims S30 S33554432x1 S33554432 := scatter_S30_S33554432x1_S33554432_n_0_0_1

/-- Update `j` starts at the signed value of row `j` of the index operand. -/
theorem scatter_start (idx : IVec S33554432x1 32) (j : S33554432.Idx) :
    dS.start j idx 0 = (idx (ix2 (n0 := 33554432) (n1 := 1) (j 0) 0)).toInt := by
  unfold ScatterDims.start
  rw [dif_pos (show (0 : Fin 1) ∈ dS.scatterDimsToOperandDims from List.mem_singleton.mpr rfl)]
  have hsi : dS.siIdx j ⟨List.idxOf (0 : Fin 1) dS.scatterDimsToOperandDims,
      List.idxOf_lt_length_iff.2 (List.mem_singleton.mpr rfl)⟩ = ix2 (n0 := 33554432) (n1 := 1) (j 0) 0 := by
    funext b; refine Fin.ext ?_
    match b with
    | ⟨0, _⟩ => rfl
    | ⟨1, _⟩ => rfl
  rw [hsi]

/-- The operand's axis is an inserted one: an update has no window coordinate on it. -/
theorem scatter_window (j : S33554432.Idx) : dS.window j 0 = 0 := by
  unfold ScatterDims.window
  rw [dif_neg (show (0 : Fin 1) ∉ dS.sKept from by decide)]

/-- Update `j` lands on bin `b` exactly when row `j` of the index operand, read signed, is `b`. -/
theorem scatter_resultIdx (idx : IVec S33554432x1 32) (j : S33554432.Idx) (b : S30.Idx) :
    dS.resultIdx? j idx = some b ↔ (idx (ix2 (n0 := 33554432) (n1 := 1) (j 0) 0)).toInt = ((b 0).val : Int) := by
  have hs := scatter_start idx j
  have hw := scatter_window j
  have hb : (b 0).val < 30 := (b 0).isLt
  unfold ScatterDims.resultIdx?
  by_cases hc : ∀ a, 0 ≤ dS.start j idx a + dS.window j a ∧ dS.start j idx a + dS.window j a < S30.size a
  · rw [dif_pos hc]
    constructor
    · intro h
      have h0 := congrArg Fin.val (congrFun (Option.some.inj h) 0)
      have hc0 := (hc 0).1
      change (dS.start j idx 0 + (dS.window j 0 : Nat)).toNat = (b 0).val at h0
      rw [hs, hw] at h0 hc0
      omega
    · intro h
      congr 1; funext a
      obtain rfl : a = 0 := Subsingleton.elim _ _
      refine Fin.ext ?_
      show (dS.start j idx 0 + (dS.window j 0 : Nat)).toNat = (b 0).val
      rw [hs, hw, h]; omega
  · rw [dif_neg hc]
    constructor
    · intro h; cases h
    · intro h; exfalso; apply hc; intro a
      obtain rfl : a = 0 := Subsingleton.elim _ _
      rw [hs, hw, h]
      refine ⟨by omega, ?_⟩
      show ((b 0).val : Int) + ((0 : Nat) : Int) < ((30 : Nat) : Int)
      omega

/-! ## The histogram -/

/-- A row of the one-column broadcast reads the entry it was made from. -/
theorem bcast_col {α : Type} (v : S33554432.Idx → α) (j : S33554432.Idx) :
    broadcastInDim S33554432x1 ![0] bcast_S33554432_S33554432x1_0 v (ix2 (n0 := 33554432) (n1 := 1) (j 0) 0) = v j := by
  unfold broadcastInDim
  congr 1
  funext a
  obtain rfl : a = 0 := Subsingleton.elim _ _
  refine Fin.ext ?_
  rw [dif_neg (by decide)]
  rfl

/-- A word that is not negative is not below zero. -/
theorem slt_zero_of_nonneg (k : BitVec 32) (h : 0 ≤ k.toInt) : IntOp.cmpi .slt k 0#32 = 0#1 := by
  have h0 : (0#32 : BitVec 32).toInt = 0 := by decide
  have hs : k.slt 0#32 = false := by
    simp only [BitVec.slt, h0, decide_eq_false_iff_not, not_lt]; exact h
  show BitVec.ofBool (k.slt 0#32) = 0#1
  rw [hs]; rfl

/-- Row `j` of the scatter's index operand is the bin of the element at `j`'s row-major position: a bin is never
    negative, so the move up by `30` never happens. -/
theorem scatIdx_row (x : FVec Ideal S8192x4096 .f32) (t : IVec S8192x4096 32) (j : S33554432.Idx) :
    scatIdx (F := Ideal) x t (ix2 (n0 := 33554432) (n1 := 1) (j 0) 0)
      = Cert.GhmSpec.bin (x (Shape.reshapeEquiv shapeCasts_S8192x4096_S33554432 j))
          (t (Shape.reshapeEquiv shapeCasts_S8192x4096_S33554432 j)) := by
  unfold scatIdx
  rw [bcast_col]
  have hf : flatInds (F := Ideal) x t j = Cert.GhmSpec.bin (x (Shape.reshapeEquiv shapeCasts_S8192x4096_S33554432 j))
      (t (Shape.reshapeEquiv shapeCasts_S8192x4096_S33554432 j)) := inds_apply x t _
  show Scalar.select (IntOp.cmpi .slt (flatInds (F := Ideal) x t j) 0#32)
      (IntOp.addi (flatInds (F := Ideal) x t j) 30#32) (flatInds (F := Ideal) x t j) = _
  rw [hf, slt_zero_of_nonneg _ (Cert.GhmSpec.bin_bounds _ _).1, select_zero]

/-- A word between `0` and `29` has signed value `n < 30` exactly when it is the word of `n`. -/
theorem toInt_eq_iff (k : BitVec 32) (h0 : 0 ≤ k.toInt) (h29 : k.toInt ≤ 29) (n : Nat) (hn : n < 30) :
    k.toInt = (n : Int) ↔ k = BitVec.ofNat 32 n := by
  constructor
  · intro h
    rw [Cert.GhmSpec.eq_ofNat_binLane k h0 h29]
    congr 1
    unfold Cert.GhmSpec.binLane; simp only; omega
  · intro h
    have hc := BitVec.toInt_eq_toNat_cond k
    have hn' : k.toNat = n := by rw [h, BitVec.toNat_ofNat]; exact Nat.mod_eq_of_lt (by omega)
    rw [hn'] at hc
    norm_num at hc
    split_ifs at hc <;> omega

/-- The accumulating scatter at an operand index: the operand there plus the sum of the updates that land there. -/
theorem scatterAdd_apply {s si su : Shape} (d : ScatterDims s si su) {w : Nat} (z : s.Idx → EReal) (idx : IVec si w)
    (upd : su.Idx → EReal) (i : s.Idx) :
    Ideal.hostScatterAdd d z idx upd i
      = z i + ∑ j ∈ Finset.univ.filter (fun j => d.resultIdx? j idx = some i), upd j := rfl

/-- Ones scattered onto zeros count: when row `j` of the index operand is a word `k j` in `[0, 29]`, every update is
    `1` and the operand is `0`, lane `b` of the result is the number of `j` with `k j` the word of `b`. -/
theorem scatter_count (z : S30.Idx → EReal) (idx : IVec S33554432x1 32) (upd : S33554432.Idx → EReal)
    (k : S33554432.Idx → BitVec 32)
    (hk : ∀ j, idx (ix2 (n0 := 33554432) (n1 := 1) (j 0) 0) = k j)
    (hb : ∀ j, 0 ≤ (k j).toInt ∧ (k j).toInt ≤ 29)
    (hu : ∀ j, upd j = 1) (hz : ∀ i, z i = 0) (b : S30.Idx) :
    Ideal.hostScatterAdd dS z idx upd b
      = ∑ j : S33554432.Idx, if k j = BitVec.ofNat 32 (b 0).val then (1 : EReal) else 0 := by
  rw [scatterAdd_apply, hz, zero_add, Finset.sum_filter]
  refine Fintype.sum_congr _ _ fun j => ?_
  rw [hu]
  refine if_congr ?_ rfl rfl
  rw [scatter_resultIdx, hk]
  exact toInt_eq_iff _ (hb j).1 (hb j).2 _ (b 0).isLt

/-- The ones the scatter adds. -/
theorem ones_apply (j : S33554432.Idx) :
    broadcastInDim S33554432 ![] bcast_S_S33554432 (constant (F := Ideal) S_ .f32 0x3F800000#32) j = (1 : EReal) := by
  show Ideal.ofBits .f32 0x3F800000#32 = 1
  exact ofBits_one

/-- The zeros it adds them onto. -/
theorem zeros_apply (i : S30.Idx) :
    broadcastInDim S30 ![] bcast_S_S30 (constant (F := Ideal) S_ .f32 0x00000000#32) i = (0 : EReal) := by
  show Ideal.ofBits .f32 0x00000000#32 = 0
  exact Ideal.ofBits_zero_f32

/-- `scatter_count` for the host operation as the program spells it. -/
theorem scatter_count' (z : FVec Ideal S30 .f32) (idx : IVec S33554432x1 32) (upd : FVec Ideal S33554432 .f32)
    (k : S33554432.Idx → BitVec 32)
    (hk : ∀ j, idx (ix2 (n0 := 33554432) (n1 := 1) (j 0) 0) = k j)
    (hb : ∀ j, 0 ≤ (k j).toInt ∧ (k j).toInt ≤ 29)
    (hu : ∀ j, upd j = (1 : EReal)) (hz : ∀ i, z i = (0 : EReal)) (b : S30.Idx) :
    Host.scatterAdd (F := Ideal) dS z idx upd b
      = ∑ j : S33554432.Idx, if k j = BitVec.ofNat 32 (b 0).val then (1 : EReal) else 0 :=
  scatter_count z idx upd k hk hb hu hz b

/-- The reference's histogram is the specification's: lane `b` counts the elements whose bin is `b`. The scatter's
    operands are read pointwise (zeros, ones, the bins along the flat axis), and the flat axis is re-indexed over the
    `[8192, 4096]` index by the reshape's bijection. -/
theorem hist_eq (x : FVec Ideal S8192x4096 .f32) (t : IVec S8192x4096 32) :
    hist (F := Ideal) x t = Cert.GhmSpec.hist x t := by
  funext b
  unfold hist
  refine (scatter_count' _ _ _
    (fun j => Cert.GhmSpec.bin (x (Shape.reshapeEquiv shapeCasts_S8192x4096_S33554432 j))
      (t (Shape.reshapeEquiv shapeCasts_S8192x4096_S33554432 j)))
    (fun j => scatIdx_row x t j) (fun j => Cert.GhmSpec.bin_bounds _ _) ones_apply zeros_apply b).trans ?_
  unfold Cert.GhmSpec.hist
  exact Fintype.sum_equiv (Shape.reshapeEquiv shapeCasts_S8192x4096_S33554432) _ _ fun j => (Cert.GhmSpec.ind_eq _ _).symm

end Cert.ReferenceIdeal.RefHistVal

end
-- ==== Proof.lean ====
/-
  The gradient-harmonised classification loss of logits `x` and integer targets `t` over [8192, 4096], computed two ways,
  is one extended real.

  Every element falls in one of thirty bins by `⌊30·|σ(x) − t|⌋` clipped to [0, 29]; a bin's weight is
  `2²⁵ / max(count/2, 1e-12)` if the bin is occupied and zero otherwise, over the number of occupied bins; the loss is the
  sum over all elements of `(softplus x − x·t)` times the weight of the element's bin, over `2²⁵`.

  The kernel makes two passes over sixteen row blocks of 512 rows. The first accumulates, in a [1,128] block that stays
  in place, the thirty counts of each row block; lane `b` ends at the number of elements in bin `b`, because the blocks
  tile the array. Host operations turn the first thirty lanes into the weight table. The second pass accumulates, in a
  [1,1] block, each row block's sum of weighted losses, picking an element's weight by thirty selects on its bin, which
  the clip makes a plain lookup; the result is the sum over the array. The reference counts by a scatter-add of ones
  at the bins, looks weights up by a gather, and sums once. Both sums are finite sums in a commutative monoid, so their
  grouping does not matter; no finiteness of the inputs is used.
-/
import proofs.«124200_j9895604649991_1_alg».proof.Defs
import proofs.«124200_j9895604649991_1_alg».proof.Proof.Gen.Kernel
import proofs.«124200_j9895604649991_1_alg».proof.Proof.Gen.Kernel.Skeleton
import proofs.«124200_j9895604649991_1_alg».proof.Proof.Gen.Kernel.Launch
import proofs.«124200_j9895604649991_1_alg».proof.Proof.Gen.Kernel.Points
import proofs.«124200_j9895604649991_1_alg».proof.Proof.Gen.Kernel.Frame
import proofs.«124200_j9895604649991_1_alg».proof.Proof.Gen.KernelIdeal
import proofs.«124200_j9895604649991_1_alg».proof.Proof.Gen.KernelIdeal.Skeleton
import proofs.«124200_j9895604649991_1_alg».proof.Proof.Gen.KernelIdeal.Launch
import proofs.«124200_j9895604649991_1_alg».proof.Proof.Gen.KernelIdeal.Points
import proofs.«124200_j9895604649991_1_alg».proof.Proof.Gen.KernelIdeal.Frame
import proofs.«124200_j9895604649991_1_alg».proof.Proof.Gen.ReferenceIdeal
import proofs.«124200_j9895604649991_1_alg».proof.Proof.Gen.Pre_finite_inputs
import proofs.«124200_j9895604649991_1_alg».proof.Proof.KernelRun
import proofs.«124200_j9895604649991_1_alg».proof.Proof.KernelValue
import proofs.«124200_j9895604649991_1_alg».proof.Proof.RefRun
import proofs.«124200_j9895604649991_1_alg».proof.Proof.RefValue
import proofs.«124200_j9895604649991_1_alg».proof.Proof.RefHist
import Idealize.ShloMosaic.Adequacy
import Idealize.ShloMosaic.Init

noncomputable section

namespace Cert.Proof

open Idealize.ShloMosaic Idealize.SL.Sem

/-- The reference's result is the loss: its histogram is the count of the elements' bins, and the rest is pointwise. -/
theorem ref_value (x : (⟨Cert.ReferenceIdeal.S8192x4096, .f32⟩ : BufTy).Contents (Elt Ideal))
    (t : (⟨Cert.ReferenceIdeal.S8192x4096, .i32⟩ : BufTy).Contents (Elt Ideal)) :
    Cert.ReferenceIdeal.RefRun.out (F := Ideal) x t = fun _ => Cert.GhmSpec.result x t :=
  Cert.ReferenceIdeal.RefValue.out_eq_of_hist x t (Cert.ReferenceIdeal.RefHistVal.hist_eq x t)

/-- The word-level kernel runs, faults nowhere and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Over the extended reals both programs end at the same number: the sum of the weighted element losses over 2²⁵,
    the weights from the histogram of the elements' bins. The kernel reaches it block by block in two passes, the
    reference in one sweep; the two differ only in how the histogram's and the loss's sums are grouped. -/
theorem algebraic : Cert.algebraic_KernelIdeal_ReferenceIdeal := by
  intro m ρ m' ρ' _ hagree
  refine ⟨fun c => fun _ => Cert.GhmSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.kernel_value m ρ c), (h c).2⟩)
      (Cert.KernelIdeal.KRun.run_named (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact ref_value _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
